-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x3 .f32) (main_arg15 : FVec F S3 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x3 .f32 := Host.absf main_arg14
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S3 .f32 := Host.absf main_arg15
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128x64 .f32) (main_arg13 : FVec F S64 .f32) (main_arg14 : FVec F S64x3 .f32) (main_arg15 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) (main_arg14 : FVec F S64x3 .f32) (main_arg15 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x64 .f32) (main_arg13 : FVec F S64 .f32) (main_arg14 : FVec F S64x3 .f32) (main_arg15 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64x1 : Shape := ⟨2, ![64, 1]⟩
abbrev S1x64 : Shape := ⟨2, ![1, 64]⟩
abbrev S1x3 : Shape := ⟨2, ![1, 3]⟩
abbrev S5000x128 : Shape := ⟨2, ![5000, 128]⟩
abbrev S5000x1 : Shape := ⟨2, ![5000, 1]⟩
abbrev S64x64 : Shape := ⟨2, ![64, 64]⟩

abbrev nBuf : Space → Nat
  | .hbm => 101
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x64, .f32⟩
  | .hbm, ⟨13, _⟩ => ⟨S64, .f32⟩
  | .hbm, ⟨14, _⟩ => ⟨S64x3, .f32⟩
  | .hbm, ⟨15, _⟩ => ⟨S3, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x1, .f32⟩
  | .hbm, ⟨79, _⟩ => ⟨S1x128, .f32⟩
  | .hbm, ⟨80, _⟩ => ⟨S50000x128, .f32⟩
  | .hbm, ⟨81, _⟩ => ⟨S_, .f32⟩
  | .hbm, ⟨82, _⟩ => ⟨S64x128, .f32⟩
  | .hbm, ⟨83, _⟩ => ⟨S50000x1, .i32⟩
  | .hbm, ⟨84, _⟩ => ⟨S64x128, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S64, .f32⟩
  | .hbm, ⟨89, _⟩ => ⟨S50000x1, .i32⟩
  | .hbm, ⟨90, _⟩ => ⟨S64, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S1x64, .f32⟩
  | .hbm, ⟨99, _⟩ => ⟨S1x3, .f32⟩
  | .hbm, ⟨100, _⟩ => ⟨S64x3, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S64x128, .f32⟩
  | .local _ .vmem, ⟨34, _⟩ => ⟨S128x64, .f32⟩
  | .local _ .vmem, ⟨35, _⟩ => ⟨S1x64, .f32⟩
  | .local _ .vmem, ⟨36, _⟩ => ⟨S64x3, .f32⟩
  | .local _ .vmem, ⟨37, _⟩ => ⟨S1x3, .f32⟩
  | .local _ .vmem, ⟨38, _⟩ => ⟨S64x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_cst : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_c : Ref sig .tc := ⟨.hbm, 33, rfl⟩
abbrev main_call0_v11 : Ref sig .tc := ⟨.hbm, 34, rfl⟩
abbrev main_call0_v12 : Ref sig .tc := ⟨.hbm, 35, rfl⟩
abbrev main_call0_c_3 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_cst_4 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_c_5 : Ref sig .tc := ⟨.hbm, 49, rfl⟩
abbrev main_call0_v24 : Ref sig .tc := ⟨.hbm, 50, rfl⟩
abbrev main_call0_v25 : Ref sig .tc := ⟨.hbm, 51, rfl⟩
abbrev main_call0_c_6 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_cst_7 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_v35 : Ref sig .tc := ⟨.hbm, 63, rfl⟩
abbrev main_call0_v36 : Ref sig .tc := ⟨.hbm, 64, rfl⟩
abbrev main_call0_c_8 : Ref sig .tc := ⟨.hbm, 65, rfl⟩
abbrev main_call0_v37 : Ref sig .tc := ⟨.hbm, 66, rfl⟩
abbrev main_call0_v38 : Ref sig .tc := ⟨.hbm, 67, rfl⟩
abbrev main_call0_c_9 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_v43 : Ref sig .tc := ⟨.hbm, 73, rfl⟩
abbrev main_call0_cst_10 : Ref sig .tc := ⟨.hbm, 74, rfl⟩
abbrev main_call0_v44 : Ref sig .tc := ⟨.hbm, 75, rfl⟩
abbrev main_call0_v45 : Ref sig .tc := ⟨.hbm, 76, rfl⟩
abbrev main_call0_v46 : Ref sig .tc := ⟨.hbm, 77, rfl⟩
abbrev main_call0_v47 : Ref sig .tc := ⟨.hbm, 78, rfl⟩
abbrev main_call0_v48 : Ref sig .tc := ⟨.hbm, 79, rfl⟩
abbrev main_call0_v49 : Ref sig .tc := ⟨.hbm, 80, rfl⟩
abbrev main_call0_cst_11 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_cst_12 : Ref sig .tc := ⟨.hbm, 85, rfl⟩
abbrev main_call0_v53 : Ref sig .tc := ⟨.hbm, 86, rfl⟩
abbrev main_call0_cst_13 : Ref sig .tc := ⟨.hbm, 87, rfl⟩
abbrev main_call0_v54 : Ref sig .tc := ⟨.hbm, 88, rfl⟩
abbrev main_call0_v55 : Ref sig .tc := ⟨.hbm, 89, rfl⟩
abbrev main_call0_v56 : Ref sig .tc := ⟨.hbm, 90, rfl⟩
abbrev main_call0_cst_14 : Ref sig .tc := ⟨.hbm, 91, rfl⟩
abbrev main_call0_call1_v0 : Ref sig .tc := ⟨.hbm, 92, rfl⟩
abbrev main_call0_call1_v1 : Ref sig .tc := ⟨.hbm, 93, rfl⟩
abbrev main_call0_v57 : Ref sig .tc := ⟨.hbm, 94, rfl⟩
abbrev main_call0_v58 : Ref sig .tc := ⟨.hbm, 95, rfl⟩
abbrev main_call0_v59 : Ref sig .tc := ⟨.hbm, 96, rfl⟩
abbrev main_call0_v60 : Ref sig .tc := ⟨.hbm, 97, rfl⟩
abbrev main_call0_v61 : Ref sig .tc := ⟨.hbm, 98, rfl⟩
abbrev main_call0_v62 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S3_S1x3 : S3.ShapeCasts S1x3
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  reduces_S64x3_S64 : S64x3.Reduces [1] S64
  shapeCasts_S64_S64x1 : S64.ShapeCasts S64x1
  broadcasts_S64x1_S64x3 : S64x1.Broadcasts S64x3
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S5000x128_S128x128_S5000x128_1_0_0_1_n_n_wf : DotDims.WF S5000x128 S128x128 S5000x128 [1] [0] [0] [1] [] []
  dot_S64x128_S128x64_S64x64_1_0_0_1_n_n_wf : DotDims.WF S64x128 S128x64 S64x64 [1] [0] [0] [1] [] []
  dot_S64x64_S64x3_S64x3_1_0_0_1_n_n_wf : DotDims.WF S64x64 S64x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x3.size a ≤ S64x3.size a
  hwx3_3 : ∀ i : grid3.Coords, EltTy.bits .f32 = 32 ∨ (Rect.block (s := S64x3) S64x3.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3.size a ≤ S1x3.size a
  hwx3_4 : ∀ i : grid3.Coords, EltTy.bits .f32 = 32 ∨ (Rect.block (s := S1x3) S1x3.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x3.size a ≤ S64x3.size a
  hwx3_5 : ∀ i : grid3.Coords, EltTy.bits .f32 = 32 ∨ (Rect.block (s := S64x3) S64x3.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

abbrev win0_0 : Pipeline.Window sig grid0 :=
  Pipeline.Window.ofSpec (Memref.whole main_call0_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v47) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v36) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v49) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v60) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S64x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v62) S1x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v0) S64x3.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x3 : Shape := ⟨2, ![1, 3]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x64, .f32⟩
  | 13 => ⟨S64, .f32⟩
  | 14 => ⟨S64x3, .f32⟩
  | 15 => ⟨S3, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S_, .f32⟩
  | 111 => ⟨S50000, .f32⟩
  | 112 => ⟨S50000, .f32⟩
  | 113 => ⟨S50000x1, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S64x128, .f32⟩
  | 124 => ⟨S50000x1, .i32⟩
  | 125 => ⟨S64x128, .f32⟩
  | 126 => ⟨S_, .f32⟩
  | 127 => ⟨S50000, .f32⟩
  | _ => ⟨S50000x128, .f32⟩

abbrev hbmTy0_1 (i : Nat) : BufTy := match i % 128 with
  | 0 => ⟨S_, .f32⟩
  | 1 => ⟨S64, .f32⟩
  | 2 => ⟨S50000x1, .i32⟩
  | 3 => ⟨S64, .f32⟩
  | 4 => ⟨S_, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x64, .f32⟩
  | 12 => ⟨S1x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x3, .f32⟩
  | 19 => ⟨S1x3, .f32⟩
  | 20 => ⟨S64x3, .f32⟩
  | 21 => ⟨S64x3, .f32⟩
  | 22 => ⟨S_, .f32⟩
  | 23 => ⟨S64, .f32⟩
  | 24 => ⟨S_, .f32⟩
  | 25 => ⟨S64, .f32⟩
  | 26 => ⟨S64, .f32⟩
  | 27 => ⟨S64x1, .f32⟩
  | 28 => ⟨S64x3, .f32⟩
  | 29 => ⟨S64x3, .f32⟩
  | 30 => ⟨S64x3, .f32⟩
  | 31 => ⟨S_, .f32⟩
  | 32 => ⟨S64, .f32⟩
  | 33 => ⟨S64x1, .f32⟩
  | 34 => ⟨S64x3, .f32⟩
  | 35 => ⟨S64x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_cst : Ref sig .tc := ⟨.hbm, 52, rfl⟩
abbrev main_call1_v0 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call3_cst : Ref sig .tc := ⟨.hbm, 87, rfl⟩
abbrev main_call3_v0 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_c_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_cst_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_15 : Ref sig .tc := ⟨.hbm, 109, rfl⟩
abbrev main_call4_v0 : Ref sig .tc := ⟨.hbm, 110, rfl⟩
abbrev main_call4_v1 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_16 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_17 : Ref sig .tc := ⟨.hbm, 126, rfl⟩
abbrev main_v81 : Ref sig .tc := ⟨.hbm, 127, rfl⟩
abbrev main_cst_18 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_19 : Ref sig .tc := ⟨.hbm, 132, rfl⟩
abbrev main_call5_v0 : Ref sig .tc := ⟨.hbm, 133, rfl⟩
abbrev main_call5_v1 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_call6_cst : Ref sig .tc := ⟨.hbm, 143, rfl⟩
abbrev main_call6_v0 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_20 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_22 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  reducesTo_S64x3_S64_d1 : S64x3.ReducesTo [1] S64
  h_S_ : 0 < S_.numel
  bcast_S64x1_S64x3_0_1 : S64x1.BroadcastsInDim S64x3 (![0, 1] : Fin 2 → Fin S64x3.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x3_S64x3_1_0_0_1_n_n_wf : DotDims.WF S64x64 S64x3 S64x3 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

class Facts : Prop extends Facts₀ where

variable [Facts]
-- ==== Proof.KernelRun.lean ====
/-
  The idealized kernel's run with its result named. The program is eight segments: four stretches of host operations and
  four launches. Running them in order from the launch memory leaves every buffer of the device at the last of nine
  successive valuations, each obtained from the one before by a stretch of host operations or by a launch's write-backs.
  Here the final state is read at the result buffer as well as at the sixteen argument buffers: the result holds what the
  last valuation holds there, and each argument holds what it held at launch.
-/
import proofs.«131074_j11450382811606_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result buffer ends at the last valuation's
    contents, and the sixteen arguments end as launched. -/
theorem run : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.ValueRun

end
-- ==== Proof.KernelStages.lean ====
/-
  The host operations around the layers, as functions of whole arrays (the program's own operations, named).

    srcOf ei, dstOf ei   the two rows of the edge list: the edges' source and destination node numbers;
    wrapOf src           a negative source number counted from the end (src + 50000 where src < 0);
    aggOf h src dst      for every node the sum of the rows of h at the sources of the edges that arrive at it: the rows of h
                         gathered at the (wrapped) sources, then scatter-added at the destinations into zeros;
    degOf dst            for every node the number of edges that arrive at it: ones scatter-added at the destinations;
    clipOf dst           max (1, degOf dst), entry by entry;
    invOf dst            1 / clipOf dst, entry by entry;
    poolOf h batch       for every graph the mean of the rows of h over its nodes: the rows scatter-added at the nodes' graph
                         numbers, divided by max (1, the number of nodes of the graph).
-/
import proofs.«131074_j11450382811606_2_alg».proof.Proof.Gen.KernelIdeal.Launch

noncomputable section

namespace Cert.KernelIdeal.Stages

open Cert.KernelIdeal Cert.KernelIdeal.Gen Idealize.ShloMosaic Idealize.ShloMosaic.TcCoe

variable {F : FTy → Type} [FloatOps F]

/-- The edges' source node numbers: row 0 of the edge list. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination node numbers: row 1 of the edge list. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- A negative node number counted from the end. -/
def wrapOf (src : (⟨S800000, .i32⟩ : BufTy).Contents (Elt F)) : (⟨S800000, .i32⟩ : BufTy).Contents (Elt F) :=
  select (cmpi .slt src (broadcastInDim S800000 ![] bcast_S_S800000 (constantI S_ 32 0#32)))
    (addi src (broadcastInDim S800000 ![] bcast_S_S800000 (constantI S_ 32 50000#32))) src

/-- For every node, the sum of the rows of `h` at the sources of the edges that arrive at it. -/
def aggOf (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (wrapOf src)))

/-- For every node, the number of edges that arrive at it. -/
def degOf (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The degree clipped below at one. -/
def clipOf (dst : (⟨S800000, .i32⟩ : BufTy).Contents (Elt F)) : (⟨S50000, .f32⟩ : BufTy).Contents (Elt F) :=
  maximumf (broadcastInDim S50000 ![] bcast_S_S50000 (id (constant S_ .f32 0x3F800000#32))) (degOf dst)

/-- The reciprocal of the clipped degree. -/
def invOf (dst : (⟨S800000, .i32⟩ : BufTy).Contents (Elt F)) : (⟨S50000, .f32⟩ : BufTy).Contents (Elt F) :=
  Host.divf (broadcastInDim S50000 ![] bcast_S_S50000 (constant S_ .f32 0x3F800000#32)) (clipOf dst)

/-- For every graph, the mean of the rows of `h` over its nodes (the divisor clipped below at one). -/
def poolOf (h : (⟨S50000x128, .f32⟩ : BufTy).Contents (Elt F)) (batch : (⟨S50000, .i32⟩ : BufTy).Contents (Elt F)) :
    (⟨S64x128, .f32⟩ : BufTy).Contents (Elt F) :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf (broadcastInDim S64 ![] bcast_S_S64 (id (constant S_ .f32 0x3F800000#32)))
        (Host.scatterAdd scatter_S64_S50000x1_S50000_n_0_0_1
          (broadcastInDim S64 ![] bcast_S_S64 (constant S_ .f32 0x00000000#32))
          (broadcastInDim S50000x1 ![0] bcast_S50000_S50000x1_0 batch)
          (broadcastInDim S50000 ![] bcast_S_S50000 (constant S_ .f32 0x3F800000#32))))))

end Cert.KernelIdeal.Stages

end
-- ==== Proof.KernelHost.lean ====
/-
  What each stretch of host operations between the launches leaves in the buffers the next launch reads, as a function of
  the buffer contents the stretch starts from (any contents `W`), and which buffers it leaves as they were.

  Before launch 0: the two rows of the edge list, the reciprocal clipped degrees, the neighbourhood sums of the input rows,
  the reciprocal degrees as a column, the first bias as a row. Before launches 1 and 2: the neighbourhood sums of the
  previous layer's output (from the edge rows kept since the first stretch), the same column, the layer's bias as a row.
  Before launch 3: the per-graph means of the last layer's output, and the head's two biases as rows.
-/
import proofs.«131074_j11450382811606_2_alg».proof.Proof.KernelStages
import Idealize.ShloMosaic.Lib.StableHlo.Run
import Idealize.ShloMosaic.PureOps.Ideal
import Idealize.ShloMosaic.Lib.Pipeline.Frame

set_option maxRecDepth 16384

noncomputable section

namespace Cert.KernelIdeal.HostReads

open Cert.KernelIdeal Cert.KernelIdeal.Gen Cert.KernelIdeal.Stages
open Idealize.ShloMosaic Idealize.ShloMosaic.TcCoe Idealize.ShloMosaic.StableHlo Idealize.SL.Sem

/-! ## Before launch 0 -/

theorem s0_v1 (W : Valuation τ sig (Elt Ideal)) :
    StableHlo.after hostOps0 W (Proc.devRef .tc main_call0_v1) = srcOf (F := Ideal) (W (Proc.devRef .tc main_arg1)) := by
  dsimp only [hostOps0]; after_results_simp <;> rfl

theorem s0_v3 (W : Valuation τ sig (Elt Ideal)) :
    StableHlo.after hostOps0 W (Proc.devRef .tc main_call0_v3) = dstOf (F := Ideal) (W (Proc.devRef .tc main_arg1)) := by
  dsimp only [hostOps0]; after_results_simp <;> rfl

theorem s0_v20 (W : Valuation τ sig (Elt Ideal)) :
    StableHlo.after hostOps0 W (Proc.devRef .tc main_call0_v20)
      = aggOf (F := Ideal) (W (Proc.devRef .tc main_arg0)) (srcOf (F := Ideal) (W (Proc.devRef .tc main_arg1))) (dstOf (F := Ideal) (W (Proc.devRef .tc main_arg1))) := by
  dsimp only [hostOps0]; after_results_simp <;> rfl

theorem s0_v22 (W : Valuation τ sig (Elt Ideal)) :
    StableHlo.after hostOps0 W (Proc.devRef .tc main_call0_v22) = shapeCast _ (W (Proc.devRef .tc main_arg4)) shapeCasts_S128_S1x128 := by
  dsimp only [hostOps0]; after_results_simp <;> rfl

theorem s0_keep_arg0 (W : Valuation τ sig (Elt Ideal)) :
    StableHlo.after hostOps0 W (Proc.devRef .tc main_arg0) = W (Proc.devRef .tc main_arg0) := by
  dsimp only [hostOps0]; after_results_simp <;> rfl

theorem s0_keep_arg2 (W : Valuation τ sig (Elt Ideal)) :
    StableHlo.after hostOps0 W (Proc.devRef .tc main_arg2) = W (Proc.devRef .tc main_arg2) := by
  dsimp only [hostOps0]; after_results_simp <;> rfl

theorem s0_keep_arg3 (W : Valuation τ sig (Elt Ideal)) :
    StableHlo.after hostOps0 W (Proc.devRef .tc main_arg3) = W (Proc.devRef .tc main_arg3) := by
  dsimp only [hostOps0]; after_results_simp <;> rfl

theorem s0_keep_arg5 (W : Valuation τ sig (Elt Ideal)) :
    StableHlo.after hostOps0 W (Proc.devRef .tc main_arg5) = W (Proc.devRef .tc main_arg5) := by
  dsimp only [hostOps0]; after_results_simp <;> rfl

theorem s0_keep_arg6 (W : Valuation τ sig (Elt Ideal)) :
    StableHlo.after hostOps0 W (Proc.devRef .tc main_arg6) = W (Proc.devRef .tc main_arg6) := by
  dsimp only [hostOps0]; after_results_simp <;> rfl

theorem s0_keep_arg7 (W : Valuation τ sig (Elt Ideal)) :
    StableHlo.after hostOps0 W (Proc.devRef .tc main_arg7) = W (Proc.devRef .tc main_arg7) := by
  dsimp only [hostOps0]; after_results_simp <;> rfl

theorem s0_keep_arg8 (W : Valuation τ sig (Elt Ideal)) :
    StableHlo.after hostOps0 W (Proc.devRef .tc main_arg8) = W (Proc.devRef .tc main_arg8) := by
  dsimp only [hostOps0]; after_results_simp <;> rfl

theorem s0_keep_arg9 (W : Valuation τ sig (Elt Ideal)) :
    StableHlo.after hostOps0 W (Proc.devRef .tc main_arg9) = W (Proc.devRef .tc main_arg9) := by
  dsimp only [hostOps0]; after_results_simp <;> rfl

theorem s0_keep_arg10 (W : Valuation τ sig (Elt Ideal)) :
    StableHlo.after hostOps0 W (Proc.devRef .tc main_arg10) = W (Proc.devRef .tc main_arg10) := by
  dsimp only [hostOps0]; after_results_simp <;> rfl

theorem s0_keep_arg11 (W : Valuation τ sig (Elt Ideal)) :
    StableHlo.after hostOps0 W (Proc.devRef .tc main_arg11) = W (Proc.devRef .tc main_arg11) := by
  dsimp only [hostOps0]; after_results_simp <;> rfl

theorem s0_keep_arg12 (W : Valuation τ sig (Elt Ideal)) :
    StableHlo.after hostOps0 W (Proc.devRef .tc main_arg12) = W (Proc.devRef .tc main_arg12) := by
  dsimp only [hostOps0]; after_results_simp <;> rfl

theorem s0_keep_arg13 (W : Valuation τ sig (Elt Ideal)) :
    StableHlo.after hostOps0 W (Proc.devRef .tc main_arg13) = W (Proc.devRef .tc main_arg13) := by
  dsimp only [hostOps0]; after_results_simp <;> rfl

theorem s0_keep_arg14 (W : Valuation τ sig (Elt Ideal)) :
    StableHlo.after hostOps0 W (Proc.devRef .tc main_arg14) = W (Proc.devRef .tc main_arg14) := by
  dsimp only [hostOps0]; after_results_simp <;> rfl

theorem s0_keep_arg15 (W : Valuation τ sig (Elt Ideal)) :
    StableHlo.after hostOps0 W (Proc.devRef .tc main_arg15) = W (Proc.devRef .tc main_arg15) := by
  dsimp only [hostOps0]; after_results_simp <;> rfl

/-! ## The reciprocal degrees, read in pieces

The first stretch is cut in four: up to the degree count (10 operations), the clip and the reciprocal (7), the
neighbourhood sums (13), the two final reshapes (2). Each piece is read from ANY contents at its start, so the degree
count is just a buffer's contents where the clip and the reciprocal are read, and the reciprocal is just a buffer's contents
where its reshape to a column is read. -/

abbrev ops0A : List (HloOp τ sig (Elt Ideal)) := hostOps0.take 10
abbrev ops0B : List (HloOp τ sig (Elt Ideal)) := (hostOps0.drop 10).take 7
abbrev ops0C : List (HloOp τ sig (Elt Ideal)) := (hostOps0.drop 17).take 13
abbrev ops0D : List (HloOp τ sig (Elt Ideal)) := hostOps0.drop 30

theorem ops0_split : (hostOps0 : List (HloOp τ sig (Elt Ideal))) = ops0A ++ (ops0B ++ (ops0C ++ ops0D)) := rfl

theorem pieceA_v7 (W : Valuation τ sig (Elt Ideal)) :
    StableHlo.after ops0A W (Proc.devRef .tc main_call0_v7) = degOf (F := Ideal) (dstOf (F := Ideal) (W (Proc.devRef .tc main_arg1))) := by
  dsimp only [ops0A, hostOps0, List.take]; after_results_simp <;> rfl

theorem pieceB_v10 (W : Valuation τ sig (Elt Ideal)) :
    StableHlo.after ops0B W (Proc.devRef .tc main_call0_v10)
      = Host.divf (broadcastInDim S50000 ![] bcast_S_S50000 (constant (F := Ideal) S_ .f32 0x3F800000#32))
          (maximumf (broadcastInDim S50000 ![] bcast_S_S50000 (id (constant (F := Ideal) S_ .f32 0x3F800000#32))) (W (Proc.devRef .tc main_call0_v7))) := by
  dsimp only [ops0B, hostOps0, List.take, List.drop]; after_results_simp <;> rfl

theorem pieceC_keep_v10 (W : Valuation τ sig (Elt Ideal)) :
    StableHlo.after ops0C W (Proc.devRef .tc main_call0_v10) = W (Proc.devRef .tc main_call0_v10) := by
  dsimp only [ops0C, hostOps0, List.take, List.drop]; after_results_simp <;> rfl

theorem pieceD_keep_v10 (W : Valuation τ sig (Elt Ideal)) :
    StableHlo.after ops0D W (Proc.devRef .tc main_call0_v10) = W (Proc.devRef .tc main_call0_v10) := by
  dsimp only [ops0D, hostOps0, List.drop]; after_results_simp <;> rfl

theorem pieceD_v21 (W : Valuation τ sig (Elt Ideal)) :
    StableHlo.after ops0D W (Proc.devRef .tc main_call0_v21) = shapeCast _ (W (Proc.devRef .tc main_call0_v10)) shapeCasts_S50000_S50000x1 := by
  dsimp only [ops0D, hostOps0, List.drop]; after_results_simp <;> rfl

theorem s0_v10 (W : Valuation τ sig (Elt Ideal)) :
    StableHlo.after hostOps0 W (Proc.devRef .tc main_call0_v10) = invOf (F := Ideal) (dstOf (F := Ideal) (W (Proc.devRef .tc main_arg1))) := by
  rw [ops0_split, StableHlo.after_append, StableHlo.after_append, StableHlo.after_append, pieceD_keep_v10, pieceC_keep_v10,
    pieceB_v10, pieceA_v7]
  unfold invOf clipOf
  rfl

theorem s0_v21 (W : Valuation τ sig (Elt Ideal)) :
    StableHlo.after hostOps0 W (Proc.devRef .tc main_call0_v21)
      = shapeCast _ (invOf (F := Ideal) (dstOf (F := Ideal) (W (Proc.devRef .tc main_arg1)))) shapeCasts_S50000_S50000x1 := by
  rw [ops0_split, StableHlo.after_append, StableHlo.after_append, StableHlo.after_append, pieceD_v21, pieceC_keep_v10,
    pieceB_v10, pieceA_v7]
  unfold invOf clipOf
  rfl

/-! ## Before launch 1 -/

theorem s1_v33 (W : Valuation τ sig (Elt Ideal)) :
    StableHlo.after hostOps1 W (Proc.devRef .tc main_call0_v33)
      = aggOf (F := Ideal) (W (Proc.devRef .tc main_call0_v23)) (W (Proc.devRef .tc main_call0_v1)) (W (Proc.devRef .tc main_call0_v3)) := by
  dsimp only [hostOps1]; after_results_simp <;> rfl

theorem s1_v34 (W : Valuation τ sig (Elt Ideal)) :
    StableHlo.after hostOps1 W (Proc.devRef .tc main_call0_v34) = shapeCast _ (W (Proc.devRef .tc main_call0_v10)) shapeCasts_S50000_S50000x1 := by
  dsimp only [hostOps1]; after_results_simp <;> rfl

theorem s1_v35 (W : Valuation τ sig (Elt Ideal)) :
    StableHlo.after hostOps1 W (Proc.devRef .tc main_call0_v35) = shapeCast _ (W (Proc.devRef .tc main_arg7)) shapeCasts_S128_S1x128 := by
  dsimp only [hostOps1]; after_results_simp <;> rfl

theorem s1_keep_v23 (W : Valuation τ sig (Elt Ideal)) :
    StableHlo.after hostOps1 W (Proc.devRef .tc main_call0_v23) = W (Proc.devRef .tc main_call0_v23) := by
  dsimp only [hostOps1]; after_results_simp <;> rfl

theorem s1_keep_v1 (W : Valuation τ sig (Elt Ideal)) :
    StableHlo.after hostOps1 W (Proc.devRef .tc main_call0_v1) = W (Proc.devRef .tc main_call0_v1) := by
  dsimp only [hostOps1]; after_results_simp <;> rfl

theorem s1_keep_v3 (W : Valuation τ sig (Elt Ideal)) :
    StableHlo.after hostOps1 W (Proc.devRef .tc main_call0_v3) = W (Proc.devRef .tc main_call0_v3) := by
  dsimp only [hostOps1]; after_results_simp <;> rfl

theorem s1_keep_v10 (W : Valuation τ sig (Elt Ideal)) :
    StableHlo.after hostOps1 W (Proc.devRef .tc main_call0_v10) = W (Proc.devRef .tc main_call0_v10) := by
  dsimp only [hostOps1]; after_results_simp <;> rfl

theorem s1_keep_arg2 (W : Valuation τ sig (Elt Ideal)) :
    StableHlo.after hostOps1 W (Proc.devRef .tc main_arg2) = W (Proc.devRef .tc main_arg2) := by
  dsimp only [hostOps1]; after_results_simp <;> rfl

theorem s1_keep_arg6 (W : Valuation τ sig (Elt Ideal)) :
    StableHlo.after hostOps1 W (Proc.devRef .tc main_arg6) = W (Proc.devRef .tc main_arg6) := by
  dsimp only [hostOps1]; after_results_simp <;> rfl

theorem s1_keep_arg8 (W : Valuation τ sig (Elt Ideal)) :
    StableHlo.after hostOps1 W (Proc.devRef .tc main_arg8) = W (Proc.devRef .tc main_arg8) := by
  dsimp only [hostOps1]; after_results_simp <;> rfl

theorem s1_keep_arg9 (W : Valuation τ sig (Elt Ideal)) :
    StableHlo.after hostOps1 W (Proc.devRef .tc main_arg9) = W (Proc.devRef .tc main_arg9) := by
  dsimp only [hostOps1]; after_results_simp <;> rfl

theorem s1_keep_arg10 (W : Valuation τ sig (Elt Ideal)) :
    StableHlo.after hostOps1 W (Proc.devRef .tc main_arg10) = W (Proc.devRef .tc main_arg10) := by
  dsimp only [hostOps1]; after_results_simp <;> rfl

theorem s1_keep_arg11 (W : Valuation τ sig (Elt Ideal)) :
    StableHlo.after hostOps1 W (Proc.devRef .tc main_arg11) = W (Proc.devRef .tc main_arg11) := by
  dsimp only [hostOps1]; after_results_simp <;> rfl

theorem s1_keep_arg12 (W : Valuation τ sig (Elt Ideal)) :
    StableHlo.after hostOps1 W (Proc.devRef .tc main_arg12) = W (Proc.devRef .tc main_arg12) := by
  dsimp only [hostOps1]; after_results_simp <;> rfl

theorem s1_keep_arg13 (W : Valuation τ sig (Elt Ideal)) :
    StableHlo.after hostOps1 W (Proc.devRef .tc main_arg13) = W (Proc.devRef .tc main_arg13) := by
  dsimp only [hostOps1]; after_results_simp <;> rfl

theorem s1_keep_arg14 (W : Valuation τ sig (Elt Ideal)) :
    StableHlo.after hostOps1 W (Proc.devRef .tc main_arg14) = W (Proc.devRef .tc main_arg14) := by
  dsimp only [hostOps1]; after_results_simp <;> rfl

theorem s1_keep_arg15 (W : Valuation τ sig (Elt Ideal)) :
    StableHlo.after hostOps1 W (Proc.devRef .tc main_arg15) = W (Proc.devRef .tc main_arg15) := by
  dsimp only [hostOps1]; after_results_simp <;> rfl

/-! ## Before launch 2 -/

theorem s2_v46 (W : Valuation τ sig (Elt Ideal)) :
    StableHlo.after hostOps2 W (Proc.devRef .tc main_call0_v46)
      = aggOf (F := Ideal) (W (Proc.devRef .tc main_call0_v36)) (W (Proc.devRef .tc main_call0_v1)) (W (Proc.devRef .tc main_call0_v3)) := by
  dsimp only [hostOps2]; after_results_simp <;> rfl

theorem s2_v47 (W : Valuation τ sig (Elt Ideal)) :
    StableHlo.after hostOps2 W (Proc.devRef .tc main_call0_v47) = shapeCast _ (W (Proc.devRef .tc main_call0_v10)) shapeCasts_S50000_S50000x1 := by
  dsimp only [hostOps2]; after_results_simp <;> rfl

theorem s2_v48 (W : Valuation τ sig (Elt Ideal)) :
    StableHlo.after hostOps2 W (Proc.devRef .tc main_call0_v48) = shapeCast _ (W (Proc.devRef .tc main_arg10)) shapeCasts_S128_S1x128 := by
  dsimp only [hostOps2]; after_results_simp <;> rfl

theorem s2_keep_v36 (W : Valuation τ sig (Elt Ideal)) :
    StableHlo.after hostOps2 W (Proc.devRef .tc main_call0_v36) = W (Proc.devRef .tc main_call0_v36) := by
  dsimp only [hostOps2]; after_results_simp <;> rfl

theorem s2_keep_arg2 (W : Valuation τ sig (Elt Ideal)) :
    StableHlo.after hostOps2 W (Proc.devRef .tc main_arg2) = W (Proc.devRef .tc main_arg2) := by
  dsimp only [hostOps2]; after_results_simp <;> rfl

theorem s2_keep_arg9 (W : Valuation τ sig (Elt Ideal)) :
    StableHlo.after hostOps2 W (Proc.devRef .tc main_arg9) = W (Proc.devRef .tc main_arg9) := by
  dsimp only [hostOps2]; after_results_simp <;> rfl

theorem s2_keep_arg11 (W : Valuation τ sig (Elt Ideal)) :
    StableHlo.after hostOps2 W (Proc.devRef .tc main_arg11) = W (Proc.devRef .tc main_arg11) := by
  dsimp only [hostOps2]; after_results_simp <;> rfl

theorem s2_keep_arg12 (W : Valuation τ sig (Elt Ideal)) :
    StableHlo.after hostOps2 W (Proc.devRef .tc main_arg12) = W (Proc.devRef .tc main_arg12) := by
  dsimp only [hostOps2]; after_results_simp <;> rfl

theorem s2_keep_arg13 (W : Valuation τ sig (Elt Ideal)) :
    StableHlo.after hostOps2 W (Proc.devRef .tc main_arg13) = W (Proc.devRef .tc main_arg13) := by
  dsimp only [hostOps2]; after_results_simp <;> rfl

theorem s2_keep_arg14 (W : Valuation τ sig (Elt Ideal)) :
    StableHlo.after hostOps2 W (Proc.devRef .tc main_arg14) = W (Proc.devRef .tc main_arg14) := by
  dsimp only [hostOps2]; after_results_simp <;> rfl

theorem s2_keep_arg15 (W : Valuation τ sig (Elt Ideal)) :
    StableHlo.after hostOps2 W (Proc.devRef .tc main_arg15) = W (Proc.devRef .tc main_arg15) := by
  dsimp only [hostOps2]; after_results_simp <;> rfl

/-! ## Before launch 3 -/

theorem s3_v60 (W : Valuation τ sig (Elt Ideal)) :
    StableHlo.after hostOps3 W (Proc.devRef .tc main_call0_v60) = poolOf (F := Ideal) (W (Proc.devRef .tc main_call0_v49)) (W (Proc.devRef .tc main_arg2)) := by
  dsimp only [hostOps3]; after_results_simp <;> rfl

theorem s3_v61 (W : Valuation τ sig (Elt Ideal)) :
    StableHlo.after hostOps3 W (Proc.devRef .tc main_call0_v61) = shapeCast _ (W (Proc.devRef .tc main_arg13)) shapeCasts_S64_S1x64 := by
  dsimp only [hostOps3]; after_results_simp <;> rfl

theorem s3_v62 (W : Valuation τ sig (Elt Ideal)) :
    StableHlo.after hostOps3 W (Proc.devRef .tc main_call0_v62) = shapeCast _ (W (Proc.devRef .tc main_arg15)) shapeCasts_S3_S1x3 := by
  dsimp only [hostOps3]; after_results_simp <;> rfl

theorem s3_keep_arg12 (W : Valuation τ sig (Elt Ideal)) :
    StableHlo.after hostOps3 W (Proc.devRef .tc main_arg12) = W (Proc.devRef .tc main_arg12) := by
  dsimp only [hostOps3]; after_results_simp <;> rfl

theorem s3_keep_arg14 (W : Valuation τ sig (Elt Ideal)) :
    StableHlo.after hostOps3 W (Proc.devRef .tc main_arg14) = W (Proc.devRef .tc main_arg14) := by
  dsimp only [hostOps3]; after_results_simp <;> rfl

end Cert.KernelIdeal.HostReads

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibDenseRows.lean ====
/-
  The dense steps of a layer as functions of whole matrices, entry by entry, on the extended reals (general in the extents):

    matProd X W   the product of an m×k matrix by a k×n matrix: entry (a, b) is  ∑ c, X (a, c) · W (c, b);
    addRow A B    a one-row matrix B added to every row of A: entry (a, b) is  A (a, b) + B (0, b);
    addRowRelu    the same followed by the rectifier, max (·, 0).

  with the host's forms of the same functions: `dot_general` (contracting [1]×[0]) is `matProd`; the sum with a vector laid
  along every row (the vector made one row, the row laid down the rows) is `addRow` of the vector cast to a one-row matrix;
  that sum followed by `maximum` with the zero constant is `addRowRelu`. A program that computes these a row block at a time
  and one that computes them in one host operation agree entry by entry, in the same order of operations: no law of
  arithmetic is needed to join them, so no finiteness of the inputs either.
  (It imports this directory's copy of LibMatDot.lean: a matrix product read at an entry, row broadcasts read at an entry.)
-/
import proofs.«131074_j11450382811606_2_alg».proof.Proof.LibMatDot

noncomputable section

open scoped BigOperators

namespace Cert.Dense

open Idealize.ShloMosaic Idealize.ShloMosaic.ValueIdx

variable {m k n : ℕ}

/-- The matrix product: entry `(a, b)` is `∑ c, X (a, c) * W (c, b)`. -/
def matProd (X : FVec Ideal ⟨2, ![m, k]⟩ .f32) (W : FVec Ideal ⟨2, ![k, n]⟩ .f32) : FVec Ideal ⟨2, ![m, n]⟩ .f32 :=
  fun i => ∑ c : Fin k, X (ix2 (⟨(i 0).val, idx2_lt0 i⟩ : Fin m) c) * W (ix2 c (⟨(i 1).val, idx2_lt1 i⟩ : Fin n))

theorem matProd_apply (X : FVec Ideal ⟨2, ![m, k]⟩ .f32) (W : FVec Ideal ⟨2, ![k, n]⟩ .f32) (a : Fin m) (b : Fin n) :
    matProd X W (ix2 a b) = ∑ c : Fin k, X (ix2 a c) * W (ix2 c b) := rfl

/-- A one-row matrix added to every row: entry `(a, b)` is `A (a, b) + B (0, b)`. -/
def addRow (A : FVec Ideal ⟨2, ![m, n]⟩ .f32) (B : FVec Ideal ⟨2, ![1, n]⟩ .f32) : FVec Ideal ⟨2, ![m, n]⟩ .f32 :=
  fun i => A i + B (ix2 (0 : Fin 1) (⟨(i 1).val, idx2_lt1 i⟩ : Fin n))

theorem addRow_apply (A : FVec Ideal ⟨2, ![m, n]⟩ .f32) (B : FVec Ideal ⟨2, ![1, n]⟩ .f32) (a : Fin m) (b : Fin n) :
    addRow A B (ix2 a b) = A (ix2 a b) + B (ix2 (0 : Fin 1) b) := rfl

/-- The row added, then the rectifier: entry `(a, b)` is `max (A (a, b) + B (0, b)) 0`. -/
def addRowRelu (A : FVec Ideal ⟨2, ![m, n]⟩ .f32) (B : FVec Ideal ⟨2, ![1, n]⟩ .f32) : FVec Ideal ⟨2, ![m, n]⟩ .f32 :=
  fun i => max (addRow A B i) (Ideal.ofBits .f32 0x00000000#32)

theorem addRowRelu_apply (A : FVec Ideal ⟨2, ![m, n]⟩ .f32) (B : FVec Ideal ⟨2, ![1, n]⟩ .f32) (a : Fin m) (b : Fin n) :
    addRowRelu A B (ix2 a b) = max (A (ix2 a b) + B (ix2 (0 : Fin 1) b)) (Ideal.ofBits .f32 0x00000000#32) := rfl

/-! ## The host's forms of the same functions -/

/-- The host's `dot_general` (contracting [1]×[0]) is the matrix product. -/
theorem dotGeneral_eq (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims ⟨2, ![m, k]⟩ ⟨2, ![k, n]⟩ ⟨2, ![m, n]⟩) prec X W = matProd X W := by
  funext i
  obtain ⟨a, b, rfl⟩ : ∃ (a : Fin m) (b : Fin n), i = ix2 a b := ⟨i 0, i 1, eq_ix2 i⟩
  rw [matProd_apply]
  exact Cert.Lib.MatDot.dotGeneral_apply w prec X W a b

/-- The host's sum with a vector laid along every row (the vector made one row, the row laid down the rows) is `addRow` of
    the vector as a one-row matrix. -/
theorem add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (A : FVec Ideal ⟨2, ![m, n]⟩ .f32) (x : FVec Ideal ⟨1, ![n]⟩ .f32) :
    addf A (broadcastInDim ⟨2, ![m, n]⟩ ![0, 1] h2 (broadcastInDim ⟨2, ![1, n]⟩ ![1] h1 x)) = addRow A (shapeCast ⟨2, ![1, n]⟩ x hc) := by
  funext i
  obtain ⟨a, b, rfl⟩ : ∃ (a : Fin m) (b : Fin n), i = ix2 a b := ⟨i 0, i 1, eq_ix2 i⟩
  rw [addRow_apply, addf_apply, Cert.Lib.MatDot.broadcastInDim_vec_rows_apply h1 h2 x a b, shapeCast_a_1a_apply x hc 0 b]

/-- The host's rectifier, `maximum` with the zero constant laid over the shape. -/
theorem relu_add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (h0 : (⟨0, ![]⟩ : Shape).BroadcastsInDim ⟨2, ![m, n]⟩ ![])
    (A : FVec Ideal ⟨2, ![m, n]⟩ .f32) (x : FVec Ideal ⟨1, ![n]⟩ .f32) :
    maximumf (addf A (broadcastInDim ⟨2, ![m, n]⟩ ![0, 1] h2 (broadcastInDim ⟨2, ![1, n]⟩ ![1] h1 x)))
        (broadcastInDim ⟨2, ![m, n]⟩ ![] h0 (constant (F := Ideal) ⟨0, ![]⟩ .f32 0x00000000#32))
      = addRowRelu A (shapeCast ⟨2, ![1, n]⟩ x hc) := by
  rw [add_rows_eq h1 h2 hc]
  funext i
  show max _ (broadcastInDim ⟨2, ![m, n]⟩ ![] h0 (constant (F := Ideal) ⟨0, ![]⟩ .f32 0x00000000#32) i) = _
  rw [broadcastInDim_scalar_apply]
  rfl

end Cert.Dense

end
-- ==== Proof.LibRowTiles.lean ====
/-
  The dense steps of a layer computed a block of rows at a time (general in the extents, on the extended reals).

  A kernel that walks an M-row matrix in blocks of R rows sees, at the block starting at row o, the rows o … o+R-1 of
  the left operand and the whole right operand. What it computes for that block — the vector unit's matrix product into
  a zero accumulator; the bias row laid down the block, added, then the rectifier; the product plus the bias row — is,
  entry by entry, the rows o … o+R-1 of the same step taken on the whole matrix (`Cert.Dense.matProd`, `addRowRelu`,
  `addRow`): entry (a, b) of the block is entry (o + a, b) of the whole. The sums run over the same terms in the same
  order, so nothing about the arithmetic of the extended reals is used.
  (It imports this directory's copies of LibDenseRows.lean and LibMatDot.lean.)
-/
import proofs.«131074_j11450382811606_2_alg».proof.Proof.LibDenseRows

noncomputable section

open scoped BigOperators

namespace Cert.RowTiles

open Idealize.ShloMosaic Idealize.ShloMosaic.ValueIdx Cert.Dense

variable {M R k n : ℕ} {φ₁ φ₂ : FTy}

/-- Rows `o … o+R-1` of the product: the block of the left operand times the whole right operand. -/
theorem matmul_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (x0 : FVec Ideal ⟨2, ![R, k]⟩ φ₁) (x1 : FVec Ideal ⟨2, ![k, n]⟩ φ₂) (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b)) (a : Fin R) (b : Fin n) :
    matmul (⟨[1], [0], [0], [1], [], [], w⟩ : DotDims ⟨2, ![R, k]⟩ ⟨2, ![k, n]⟩ ⟨2, ![R, n]⟩) prec x0 x1
        (constant (F := Ideal) ⟨2, ![R, n]⟩ .f32 0x00000000#32) (ix2 a b)
      = matProd X W (ix2 (⟨o + a.val, by have := a.isLt; omega⟩ : Fin M) b) := by
  rw [Cert.Lib.MatDot.matmul_zero_apply w prec x0 x1 a b, matProd_apply]
  exact Finset.sum_congr rfl fun c _ => by rw [h0 a c, h1 c b]

/-- Rows `o … o+R-1` of "add the bias row, then the rectifier": the same on the block, the bias vector cast to one
    row and laid down the block's rows. -/
theorem addRowRelu_rows (A : FVec Ideal ⟨2, ![M, n]⟩ .f32) (bias : FVec Ideal ⟨1, ![n]⟩ .f32)
    (x0 : FVec Ideal ⟨2, ![R, n]⟩ .f32) (x1 : FVec Ideal ⟨1, ![n]⟩ .f32)
    (hs : (⟨2, ![R, n]⟩ : Shape).ShapeCasts ⟨2, ![R, n]⟩) (hc : (⟨1, ![n]⟩ : Shape).ShapeCasts ⟨2, ![1, n]⟩)
    (hb : (⟨2, ![1, n]⟩ : Shape).Broadcasts ⟨2, ![R, n]⟩) (o : ℕ) (ho : o + R ≤ M)
    (h0 : ∀ (a : Fin R) (b : Fin n), x0 (ix2 a b) = A (ix2 (⟨o + a.val, by have := a.isLt; omega⟩ : Fin M) b))
    (h1 : ∀ b : Fin n, x1 (ix1 b) = bias (ix1 b)) (a : Fin R) (b : Fin n) :
    maximumf (addf (shapeCast ⟨2, ![R, n]⟩ x0 hs) (broadcastTo ⟨2, ![R, n]⟩ (shapeCast ⟨2, ![1, n]⟩ x1 hc) hb))
        (broadcast ⟨2, ![R, n]⟩ (Scalar.ofBits (F := Ideal) .f32 0x00000000#32)) (ix2 a b)
      = addRowRelu A (shapeCast ⟨2, ![1, n]⟩ bias hc) (ix2 (⟨o + a.val, by have := a.isLt; omega⟩ : Fin M) b) := by
  rw [maximumf_apply, addf_apply, broadcast_apply, shapeCast_self,
    Cert.Lib.MatDot.broadcastTo_vec_rows_apply hc hb x1 a b, addRowRelu_apply, shapeCast_a_1a_apply bias hc 0 b, h0 a b, h1 b]
  rfl

/-- The product plus the bias row, on a block of rows: rows `o … o+R-1` of `addRow (matProd X W) bias`. -/
theorem matmul_addRow_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (bias : FVec Ideal ⟨1, ![n]⟩ .f32)
    (x0 : FVec Ideal ⟨2, ![R, k]⟩ φ₁) (x1 : FVec Ideal ⟨2, ![k, n]⟩ φ₂) (x2 : FVec Ideal ⟨1, ![n]⟩ .f32)
    (hc : (⟨1, ![n]⟩ : Shape).ShapeCasts ⟨2, ![1, n]⟩) (hb : (⟨2, ![1, n]⟩ : Shape).Broadcasts ⟨2, ![R, n]⟩)
    (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b))
    (h2 : ∀ b : Fin n, x2 (ix1 b) = bias (ix1 b)) (a : Fin R) (b : Fin n) :
    addf (matmul (⟨[1], [0], [0], [1], [], [], w⟩ : DotDims ⟨2, ![R, k]⟩ ⟨2, ![k, n]⟩ ⟨2, ![R, n]⟩) prec x0 x1
          (constant (F := Ideal) ⟨2, ![R, n]⟩ .f32 0x00000000#32))
        (broadcastTo ⟨2, ![R, n]⟩ (shapeCast ⟨2, ![1, n]⟩ x2 hc) hb) (ix2 a b)
      = addRow (matProd X W) (shapeCast ⟨2, ![1, n]⟩ bias hc) (ix2 (⟨o + a.val, by have := a.isLt; omega⟩ : Fin M) b) := by
  rw [addf_apply, matmul_rows w prec X W x0 x1 o ho h0 h1 a b,
    Cert.Lib.MatDot.broadcastTo_vec_rows_apply hc hb x2 a b, addRow_apply, shapeCast_a_1a_apply bias hc 0 b, h2 b]

end Cert.RowTiles

end
-- ==== Proof.LibLayerStages.lean ====
/-
  The two dense stages of one graph-convolution layer as functions of whole arrays, entry by entry, on the extended
  reals (general in the extents), and what a kernel that walks the rows a block at a time computes for one block.

    proj A X P Q b      entry (r, c) is  (∑ k, A (r, k) · P (k, c)  +  ∑ k, X (r, k) · Q (k, c))  +  b (0, c):
                        the aggregated rows times one weight matrix, the rows themselves times another, a bias row;
    normRelu H μ v g β  entry (r, c) is  max (((H (r, c) − μ (0, c)) · rsqrt (v (0, c) + ε)) · g (0, c) + β (0, c)) 0:
                        each column centred by μ, scaled by the reciprocal root of v + ε, then by g, shifted by β,
                        and rectified; μ, v, g, β are one-row matrices.

  A block of R rows starting at row o of either stage depends on rows o … o+R-1 of the row operands and on the whole
  of the small operands, and is, entry by entry, rows o … o+R-1 of the stage taken on the whole arrays: the sums run
  over the same terms in the same order, so no law of arithmetic is used.
  (It imports this directory's copies of LibRowTiles.lean, LibDenseRows.lean and LibMatDot.lean.)
-/
import proofs.«131074_j11450382811606_2_alg».proof.Proof.LibRowTiles

noncomputable section

open scoped BigOperators

namespace Cert.Layers

open Idealize.ShloMosaic Idealize.ShloMosaic.ValueIdx Cert.Dense

variable {M R k n : ℕ} {φ₁ φ₂ : FTy}

/-- The projection stage of a layer. -/
def proj (A X : FVec Ideal ⟨2, ![M, k]⟩ .f32) (P Q : FVec Ideal ⟨2, ![k, n]⟩ .f32) (b : FVec Ideal ⟨2, ![1, n]⟩ .f32) :
    FVec Ideal ⟨2, ![M, n]⟩ .f32 :=
  addRow (addf (matProd A P) (matProd X Q)) b

theorem proj_apply (A X : FVec Ideal ⟨2, ![M, k]⟩ .f32) (P Q : FVec Ideal ⟨2, ![k, n]⟩ .f32) (b : FVec Ideal ⟨2, ![1, n]⟩ .f32)
    (r : Fin M) (c : Fin n) :
    proj A X P Q b (ix2 r c) = (matProd A P (ix2 r c) + matProd X Q (ix2 r c)) + b (ix2 (0 : Fin 1) c) := rfl

/-- Rows o … o+R-1 of the projection stage: two products of row blocks into zero accumulators, added, plus the bias
    row laid down the block. -/
theorem proj_rows (w : DotDims.WF ⟨2, ![R, k]⟩ ⟨2, ![k, n]⟩ ⟨2, ![R, n]⟩ [1] [0] [0] [1] [] [])
    (prec : Option ContractPrecision) (A X : FVec Ideal ⟨2, ![M, k]⟩ .f32) (P Q : FVec Ideal ⟨2, ![k, n]⟩ .f32)
    (b : FVec Ideal ⟨2, ![1, n]⟩ .f32)
    (y0 y2 : FVec Ideal ⟨2, ![R, k]⟩ φ₁) (y1 y3 : FVec Ideal ⟨2, ![k, n]⟩ φ₂) (y4 : FVec Ideal ⟨2, ![1, n]⟩ .f32)
    (hb : (⟨2, ![1, n]⟩ : Shape).Broadcasts ⟨2, ![R, n]⟩) (o : ℕ) (ho : o + R ≤ M)
    (h0 : ∀ (a : Fin R) (c : Fin k), y0 (ix2 a c) = A (ix2 (⟨o + a.val, by have := a.isLt; omega⟩ : Fin M) c))
    (h1 : ∀ (c : Fin k) (d : Fin n), y1 (ix2 c d) = P (ix2 c d))
    (h2 : ∀ (a : Fin R) (c : Fin k), y2 (ix2 a c) = X (ix2 (⟨o + a.val, by have := a.isLt; omega⟩ : Fin M) c))
    (h3 : ∀ (c : Fin k) (d : Fin n), y3 (ix2 c d) = Q (ix2 c d))
    (h4 : ∀ d : Fin n, y4 (ix2 (0 : Fin 1) d) = b (ix2 (0 : Fin 1) d)) (a : Fin R) (d : Fin n) :
    addf (addf (matmul (⟨[1], [0], [0], [1], [], [], w⟩ : DotDims ⟨2, ![R, k]⟩ ⟨2, ![k, n]⟩ ⟨2, ![R, n]⟩) prec y0 y1
            (constant (F := Ideal) ⟨2, ![R, n]⟩ .f32 0x00000000#32))
          (matmul (⟨[1], [0], [0], [1], [], [], w⟩ : DotDims ⟨2, ![R, k]⟩ ⟨2, ![k, n]⟩ ⟨2, ![R, n]⟩) prec y2 y3
            (constant (F := Ideal) ⟨2, ![R, n]⟩ .f32 0x00000000#32)))
        (broadcastTo ⟨2, ![R, n]⟩ y4 hb) (ix2 a d)
      = proj A X P Q b (ix2 (⟨o + a.val, by have := a.isLt; omega⟩ : Fin M) d) := by
  rw [addf_apply, addf_apply, Cert.RowTiles.matmul_rows w prec A P y0 y1 o ho h0 h1 a d,
    Cert.RowTiles.matmul_rows w prec X Q y2 y3 o ho h2 h3 a d, broadcastTo_1b_ab_apply y4 hb a d, h4 d, proj_apply]

/-- The small positive constant added to the variance (the float word of 1e-5, read as its exact value). -/
abbrev eps : EReal := Ideal.ofBits .f32 0x3727C5AC#32

/-- The normalisation stage of a layer: centre, scale, shift, rectify; the column statistics and the affine
    parameters are one-row matrices. -/
def normRelu (H : FVec Ideal ⟨2, ![M, n]⟩ .f32) (mu v g be : FVec Ideal ⟨2, ![1, n]⟩ .f32) : FVec Ideal ⟨2, ![M, n]⟩ .f32 :=
  fun i => max ((((H i - mu (ix2 (0 : Fin 1) (⟨(i 1).val, idx2_lt1 i⟩ : Fin n)))
      * Ideal.rsqrt (v (ix2 (0 : Fin 1) (⟨(i 1).val, idx2_lt1 i⟩ : Fin n)) + eps))
      * g (ix2 (0 : Fin 1) (⟨(i 1).val, idx2_lt1 i⟩ : Fin n)))
      + be (ix2 (0 : Fin 1) (⟨(i 1).val, idx2_lt1 i⟩ : Fin n))) (Ideal.ofBits .f32 0x00000000#32)

theorem normRelu_apply (H : FVec Ideal ⟨2, ![M, n]⟩ .f32) (mu v g be : FVec Ideal ⟨2, ![1, n]⟩ .f32) (r : Fin M) (c : Fin n) :
    normRelu H mu v g be (ix2 r c)
      = max ((((H (ix2 r c) - mu (ix2 (0 : Fin 1) c)) * Ideal.rsqrt (v (ix2 (0 : Fin 1) c) + eps)) * g (ix2 (0 : Fin 1) c))
          + be (ix2 (0 : Fin 1) c)) (Ideal.ofBits .f32 0x00000000#32) := rfl

/-- Rows o … o+R-1 of the normalisation stage: the same operations on the block, each one-row operand laid down the
    block's rows. -/
theorem normRelu_rows (H : FVec Ideal ⟨2, ![M, n]⟩ .f32) (mu v g be : FVec Ideal ⟨2, ![1, n]⟩ .f32)
    (y0 : FVec Ideal ⟨2, ![R, n]⟩ .f32) (y1 y2 y3 y4 : FVec Ideal ⟨2, ![1, n]⟩ .f32)
    (hb : (⟨2, ![1, n]⟩ : Shape).Broadcasts ⟨2, ![R, n]⟩) (o : ℕ) (ho : o + R ≤ M)
    (h0 : ∀ (a : Fin R) (d : Fin n), y0 (ix2 a d) = H (ix2 (⟨o + a.val, by have := a.isLt; omega⟩ : Fin M) d))
    (h1 : ∀ d : Fin n, y1 (ix2 (0 : Fin 1) d) = mu (ix2 (0 : Fin 1) d))
    (h2 : ∀ d : Fin n, y2 (ix2 (0 : Fin 1) d) = v (ix2 (0 : Fin 1) d))
    (h3 : ∀ d : Fin n, y3 (ix2 (0 : Fin 1) d) = g (ix2 (0 : Fin 1) d))
    (h4 : ∀ d : Fin n, y4 (ix2 (0 : Fin 1) d) = be (ix2 (0 : Fin 1) d)) (a : Fin R) (d : Fin n) :
    maximumf (addf (mulf (mulf (subf y0 (broadcastTo ⟨2, ![R, n]⟩ y1 hb))
          (broadcastTo ⟨2, ![R, n]⟩ (rsqrt (addf y2 (broadcast ⟨2, ![1, n]⟩ (Scalar.ofBits (F := Ideal) .f32 0x3727C5AC#32)))) hb))
          (broadcastTo ⟨2, ![R, n]⟩ y3 hb)) (broadcastTo ⟨2, ![R, n]⟩ y4 hb))
        (broadcast ⟨2, ![R, n]⟩ (Scalar.ofBits (F := Ideal) .f32 0x00000000#32)) (ix2 a d)
      = normRelu H mu v g be (ix2 (⟨o + a.val, by have := a.isLt; omega⟩ : Fin M) d) := by
  rw [maximumf_apply, addf_apply, mulf_apply, mulf_apply, subf_apply, broadcast_apply,
    broadcastTo_1b_ab_apply y1 hb a d, broadcastTo_1b_ab_apply _ hb a d, broadcastTo_1b_ab_apply y3 hb a d,
    broadcastTo_1b_ab_apply y4 hb a d, normRelu_apply, h0 a d, h1 d, h3 d, h4 d, ← h2 d]
  rfl

end Cert.Layers

end
-- ==== Proof.LibLayerHost.lean ====
/-
  The reference's spelling of the two dense stages against `Layers.proj` and `Layers.normRelu`, on the extended reals
  (general in the extents).

  Projection. The host computes (A·P + rows b) + X·Q with `dot_general` for the products and the bias vector laid along
  every row; `Layers.proj` is (A·P + X·Q) + b. Entry by entry the two differ by the order of a three-term sum, and
  addition of extended reals is commutative and associative (also at the infinities), so they are equal with no
  condition on the operands.

  Normalisation. The host lays the vectors of column means, reciprocal roots, scales and shifts along every row (each
  vector made one row, the row laid down the rows) and applies subtract, multiply, multiply, add, maximum with zero;
  `Layers.normRelu` reads the same vectors as one-row matrices. Entry by entry the operations are the same in the same
  order. A vector made one row by a broadcast along axis 1 and the same vector cast to a one-row matrix are one array.
  (It imports this directory's copies of LibLayerStages.lean, LibRowTiles.lean, LibDenseRows.lean and LibMatDot.lean.)
-/
import proofs.«131074_j11450382811606_2_alg».proof.Proof.LibLayerStages

noncomputable section

open scoped BigOperators

namespace Cert.Bridge

open Idealize.ShloMosaic Idealize.ShloMosaic.ValueIdx Cert.Dense Cert.Layers

variable {M k n : ℕ}

/-- A vector made a one-row matrix by a broadcast along axis 1 is the vector cast to a one-row matrix. -/
theorem oneRow_eq {α : Type} (h1 : (⟨1, ![n]⟩ : Shape).BroadcastsInDim ⟨2, ![1, n]⟩ ![1])
    (hc : (⟨1, ![n]⟩ : Shape).ShapeCasts ⟨2, ![1, n]⟩) (v : (⟨1, ![n]⟩ : Shape).Idx → α) :
    broadcastInDim ⟨2, ![1, n]⟩ ![1] h1 v = shapeCast ⟨2, ![1, n]⟩ v hc := by
  funext i
  obtain ⟨u, d, rfl⟩ : ∃ (u : Fin 1) (d : Fin n), i = ix2 u d := ⟨i 0, i 1, eq_ix2 i⟩
  obtain rfl : u = 0 := Subsingleton.elim _ _
  rw [Cert.Lib.MatDot.broadcastInDim_vec_oneRow_apply h1 v 0 d, shapeCast_a_1a_apply v hc 0 d]

/-- The host's projection, (A·P + rows b) + X·Q, is `proj`, (A·P + X·Q) + b: a three-term sum reordered. -/
theorem hostLayer_eq (w : DotDims.WF ⟨2, ![M, k]⟩ ⟨2, ![k, n]⟩ ⟨2, ![M, n]⟩ [1] [0] [0] [1] [] [])
    (prec : Option ContractPrecision) (h1 : (⟨1, ![n]⟩ : Shape).BroadcastsInDim ⟨2, ![1, n]⟩ ![1])
    (h2 : (⟨2, ![1, n]⟩ : Shape).BroadcastsInDim ⟨2, ![M, n]⟩ ![0, 1]) (hc : (⟨1, ![n]⟩ : Shape).ShapeCasts ⟨2, ![1, n]⟩)
    (A X : FVec Ideal ⟨2, ![M, k]⟩ .f32) (P Q : FVec Ideal ⟨2, ![k, n]⟩ .f32) (br : FVec Ideal ⟨1, ![n]⟩ .f32) :
    addf (addf (Host.dotGeneral (⟨[1], [0], [0], [1], [], [], w⟩ : DotDims ⟨2, ![M, k]⟩ ⟨2, ![k, n]⟩ ⟨2, ![M, n]⟩) prec A P)
        (broadcastInDim ⟨2, ![M, n]⟩ ![0, 1] h2 (broadcastInDim ⟨2, ![1, n]⟩ ![1] h1 br)))
      (Host.dotGeneral (⟨[1], [0], [0], [1], [], [], w⟩ : DotDims ⟨2, ![M, k]⟩ ⟨2, ![k, n]⟩ ⟨2, ![M, n]⟩) prec X Q)
      = proj A X P Q (shapeCast ⟨2, ![1, n]⟩ br hc) := by
  rw [dotGeneral_eq w prec A P, dotGeneral_eq w prec X Q, add_rows_eq h1 h2 hc]
  funext i
  obtain ⟨r, d, rfl⟩ : ∃ (r : Fin M) (d : Fin n), i = ix2 r d := ⟨i 0, i 1, eq_ix2 i⟩
  rw [proj_apply, addf_apply, addRow_apply]
  exact add_right_comm _ _ _

/-- The host's normalisation and rectifier is `normRelu` of the same vectors as one-row matrices. -/
theorem hostNorm_eq (h1 : (⟨1, ![n]⟩ : Shape).BroadcastsInDim ⟨2, ![1, n]⟩ ![1])
    (h2 : (⟨2, ![1, n]⟩ : Shape).BroadcastsInDim ⟨2, ![M, n]⟩ ![0, 1]) (hc : (⟨1, ![n]⟩ : Shape).ShapeCasts ⟨2, ![1, n]⟩)
    (h0 : (⟨0, ![]⟩ : Shape).BroadcastsInDim ⟨2, ![M, n]⟩ ![]) (hs : (⟨0, ![]⟩ : Shape).BroadcastsInDim ⟨1, ![n]⟩ ![])
    (H : FVec Ideal ⟨2, ![M, n]⟩ .f32) (mu sg g be : FVec Ideal ⟨1, ![n]⟩ .f32) :
    maximumf (addf (mulf (mulf (subf H (broadcastInDim ⟨2, ![M, n]⟩ ![0, 1] h2 (broadcastInDim ⟨2, ![1, n]⟩ ![1] h1 mu)))
          (broadcastInDim ⟨2, ![M, n]⟩ ![0, 1] h2 (broadcastInDim ⟨2, ![1, n]⟩ ![1] h1
            (Host.rsqrt (addf sg (broadcastInDim ⟨1, ![n]⟩ ![] hs (constant (F := Ideal) ⟨0, ![]⟩ .f32 0x3727C5AC#32)))))))
          (broadcastInDim ⟨2, ![M, n]⟩ ![0, 1] h2 (broadcastInDim ⟨2, ![1, n]⟩ ![1] h1 g)))
          (broadcastInDim ⟨2, ![M, n]⟩ ![0, 1] h2 (broadcastInDim ⟨2, ![1, n]⟩ ![1] h1 be)))
        (broadcastInDim ⟨2, ![M, n]⟩ ![] h0 (constant (F := Ideal) ⟨0, ![]⟩ .f32 0x00000000#32))
      = normRelu H (shapeCast ⟨2, ![1, n]⟩ mu hc) (shapeCast ⟨2, ![1, n]⟩ sg hc) (shapeCast ⟨2, ![1, n]⟩ g hc)
          (shapeCast ⟨2, ![1, n]⟩ be hc) := by
  funext i
  obtain ⟨r, d, rfl⟩ : ∃ (r : Fin M) (d : Fin n), i = ix2 r d := ⟨i 0, i 1, eq_ix2 i⟩
  rw [maximumf_apply, addf_apply, mulf_apply, mulf_apply, subf_apply,
    Cert.Lib.MatDot.broadcastInDim_vec_rows_apply h1 h2 mu r d, Cert.Lib.MatDot.broadcastInDim_vec_rows_apply h1 h2 _ r d,
    Cert.Lib.MatDot.broadcastInDim_vec_rows_apply h1 h2 g r d, Cert.Lib.MatDot.broadcastInDim_vec_rows_apply h1 h2 be r d,
    broadcastInDim_scalar_apply, normRelu_apply, shapeCast_a_1a_apply mu hc 0 d, shapeCast_a_1a_apply sg hc 0 d,
    shapeCast_a_1a_apply g hc 0 d, shapeCast_a_1a_apply be hc 0 d]
  show max ((((H (ix2 r d) - mu (ix1 d)) * Ideal.rsqrt (sg (ix1 d) + broadcastInDim ⟨1, ![n]⟩ ![] hs (constant (F := Ideal) ⟨0, ![]⟩ .f32 0x3727C5AC#32) (ix1 d))) * g (ix1 d)) + be (ix1 d)) _ = _
  rw [broadcastInDim_scalar_apply]
  rfl

end Cert.Bridge

end
-- ==== Proof.LibSageLayer.lean ====
/-
  One layer of the network as a function of whole arrays, entry by entry, on the extended reals (general in the extents).

    scaleRows A s        entry (r, c) is  A (r, c) · s (r, 0):  every row of A multiplied by that row's entry of the column s;
    conv A s X P Q b     entry (r, c) is  (∑ k, (A (r, k) · s (r, 0)) · P (k, c)  +  ∑ k, X (r, k) · Q (k, c))  +  b (0, c):
                         the neighbourhood sums A turned into means by the column s of reciprocal degrees, times one weight
                         matrix, plus the rows themselves times another, plus a bias row;
    rect H               entry (r, c) is  max (H (r, c)) 0.

  The reference divides each row of A by that row's clipped degree d (r) instead of multiplying by 1 / d (r). On the
  extended reals x / y is x · y⁻¹ whenever y ≠ 0, and 1 / y is then 1 · y⁻¹ = y⁻¹; so x · (1 / y) = x / y for every
  extended real x as soon as y ≠ 0. A clipped degree is max (1, deg) ≥ 1, hence never 0 — also if deg were infinite.
  (It imports this directory's copies of LibLayerHost.lean, LibLayerStages.lean, LibRowTiles.lean, LibDenseRows.lean and LibMatDot.lean.)
-/
import proofs.«131074_j11450382811606_2_alg».proof.Proof.LibLayerHost

noncomputable section

open scoped BigOperators

namespace Cert.Sage

open Idealize.ShloMosaic Idealize.ShloMosaic.ValueIdx Cert.Dense Cert.Layers

variable {M k n : ℕ}

/-- Every row of `A` multiplied by that row's entry of the column `s`. -/
def scaleRows (A : FVec Ideal ⟨2, ![M, k]⟩ .f32) (s : FVec Ideal ⟨2, ![M, 1]⟩ .f32) : FVec Ideal ⟨2, ![M, k]⟩ .f32 :=
  fun i => A i * s (ix2 (⟨(i 0).val, idx2_lt0 i⟩ : Fin M) (0 : Fin 1))

theorem scaleRows_apply (A : FVec Ideal ⟨2, ![M, k]⟩ .f32) (s : FVec Ideal ⟨2, ![M, 1]⟩ .f32) (r : Fin M) (c : Fin k) :
    scaleRows A s (ix2 r c) = A (ix2 r c) * s (ix2 r (0 : Fin 1)) := rfl

/-- The rectifier, entry by entry. -/
def rect (H : FVec Ideal ⟨2, ![M, n]⟩ .f32) : FVec Ideal ⟨2, ![M, n]⟩ .f32 :=
  fun i => max (H i) (Ideal.ofBits .f32 0x00000000#32)

theorem rect_apply (H : FVec Ideal ⟨2, ![M, n]⟩ .f32) (i : (⟨2, ![M, n]⟩ : Shape).Idx) :
    rect H i = max (H i) (Ideal.ofBits .f32 0x00000000#32) := rfl

/-- One layer before its rectifier: the means times one weight matrix, the rows times another, a bias row. -/
def conv (A : FVec Ideal ⟨2, ![M, k]⟩ .f32) (s : FVec Ideal ⟨2, ![M, 1]⟩ .f32) (X : FVec Ideal ⟨2, ![M, k]⟩ .f32)
    (P Q : FVec Ideal ⟨2, ![k, n]⟩ .f32) (b : FVec Ideal ⟨2, ![1, n]⟩ .f32) : FVec Ideal ⟨2, ![M, n]⟩ .f32 :=
  proj (scaleRows A s) X P Q b

/-- For a divisor that is not zero, multiplying by its reciprocal is dividing by it, on every extended real. -/
theorem mul_one_div (x y : EReal) (hy : y ≠ 0) : x * Ideal.div 1 y = Ideal.div x y := by
  unfold Ideal.div
  simp only [if_neg hy, one_mul]

/-- The float word of 1.0 denotes the number one. -/
theorem ofBits_one : Ideal.ofBits .f32 0x3F800000#32 = 1 := by
  simp [Ideal.ofBits, Ideal.ieee, -EReal.coe_mul]; norm_num

/-- The maximum of one and anything is not zero. -/
theorem max_one_ne_zero (d : EReal) : max (Ideal.ofBits .f32 0x3F800000#32) d ≠ 0 := by
  rw [ofBits_one]
  intro h
  have h0 : (0 : EReal) < 1 := by exact_mod_cast (zero_lt_one : (0 : ℝ) < 1)
  have h1 : (1 : EReal) ≤ max 1 d := le_max_left _ _
  rw [h] at h1
  exact absurd h1 (not_le.mpr h0)

end Cert.Sage

end
-- ==== Proof.Layer0.lean ====
/-
  Launch 0 of the kernel: one layer's dense part, computed a block of 5000 rows at a time over a grid of 10 points.

  Point t reads rows 5000·t … 5000·t+4999 of the neighbourhood sums, of the column of reciprocal degrees and of the
  layer's input, and the two weight matrices and the bias row whole; it stores rows 5000·t … 5000·t+4999 of the output.
  What it stores at entry (a, d) of its block is entry (5000·t + a, d) of the layer taken on the whole arrays
  (`Cert.Sage.conv`, rectified): the row sums run over the same terms in the same order. The ten blocks tile the 50000 rows, so after the
  launch the output array IS the layer of the arrays the launch found.
-/
import proofs.«131074_j11450382811606_2_alg».proof.Proof.Gen.KernelIdeal.Frame
import proofs.«131074_j11450382811606_2_alg».proof.Proof.LibSageLayer
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense Cert.Layers Cert.Sage

theorem hz : (![0, 0] : Fin 2 → Nat) = fun _ => 0 := funext fun a => by fin_cases a <;> rfl

/-- The value the body stores, at entry (a, d) of the block of rows o … o+4999, is entry (o + a, d) of the layer. -/
theorem pay_rows (A X : FVec Ideal S50000x128 .f32) (s : FVec Ideal S50000x1 .f32) (P Q : FVec Ideal S128x128 .f32)
    (b : FVec Ideal S1x128 .f32)
    (x0 x2 : Vec Ideal S5000x128 .f32) (x1 : Vec Ideal S5000x1 .f32) (x3 x5 : Vec Ideal S128x128 .f32) (x4 : Vec Ideal S1x128 .f32)
    (o : ℕ) (ho : o + 5000 ≤ 50000)
    (h0 : ∀ (a : Fin 5000) (c : Fin 128), x0 (ix2 a c) = A (ix2 (⟨o + a.val, by have := a.isLt; omega⟩ : Fin 50000) c))
    (h1 : ∀ a : Fin 5000, x1 (ix2 a (0 : Fin 1)) = s (ix2 (⟨o + a.val, by have := a.isLt; omega⟩ : Fin 50000) (0 : Fin 1)))
    (h2 : ∀ (a : Fin 5000) (c : Fin 128), x2 (ix2 a c) = X (ix2 (⟨o + a.val, by have := a.isLt; omega⟩ : Fin 50000) c))
    (h3 : ∀ c d : Fin 128, x3 (ix2 c d) = P (ix2 c d))
    (h5 : ∀ c d : Fin 128, x5 (ix2 c d) = Q (ix2 c d))
    (h4 : ∀ d : Fin 128, x4 (ix2 (0 : Fin 1) d) = b (ix2 (0 : Fin 1) d))
    (a : Fin 5000) (d : Fin 128) :
    k0_pay1 (F := Ideal) x0 x1 x2 x3 x5 x4 (ix2 a d)
      = rect (conv A s X P Q b) (ix2 (⟨o + a.val, by have := a.isLt; omega⟩ : Fin 50000) d) := by
  unfold k0_pay1
  refine (maximumf_apply _ _ _).trans ?_
  refine congrArg₂ max ?_ rfl
  exact proj_rows (M := 50000) dot_S5000x128_S128x128_S5000x128_1_0_0_1_n_n.wf none (scaleRows A s) X P Q b _ _ _ _ _
    broadcasts_S1x128_S5000x128 o ho
    (fun a c => by
      rw [truncf_apply, mulf_apply, shapeCast_self, Cert.Lib.MatDot.broadcastTo_col_apply, shapeCast_self, h0 a c, h1 a,
        scaleRows_apply])
    (fun c d => by rw [truncf_apply, h3])
    (fun a c => by rw [truncf_apply, h2])
    (fun c d => by rw [truncf_apply, h5])
    (fun d => by rw [shapeCast_self, h4]) a d

variable (V : (c : Dev nD) → (b : Ref sig .tc) → Buf (Elt Ideal) ((c : Thread nD τ).loc b))

/-- The layer of the arrays the launch finds. -/
def G (c : Dev nD) : S50000x128.Idx → EReal :=
  rect (conv (M := 50000) (k := 128) (n := 128) (V c main_call0_v20 : S50000x128.Idx → EReal) (V c main_call0_v21 : S50000x1.Idx → EReal)
    (V c main_arg0 : S50000x128.Idx → EReal) (V c main_arg3 : S128x128.Idx → EReal) (V c main_arg5 : S128x128.Idx → EReal)
    (V c main_call0_v22 : S1x128.Idx → EReal))

/-- The index maps over the grid: the three row-blocked inputs move with the output along the rows, nothing moves along
    the columns, the weights and the bias stay put, and the output's row block index is at most 9. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block is some point's. -/
theorem idx_onto : ∀ q : Fin 10, ∃ t : Fin cfg0.N, win0_6.index t = ![q.val, 0] :=
  (by decide +kernel : ∀ q : Fin 10, ∃ t : Fin grid0.N, win0_6.index t = ![q.val, 0])

/-- What point `t` writes back is block `t` of the layer of the arrays the launch finds. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e61, e6le⟩ := idx_facts t
  funext j
  have hj : (j : S5000x128.Idx) = ix2 (j 0) (j 1) := eq_ix2 (n0 := 5000) (n1 := 128) j
  have hemb : ((cfg0.win 6).blk t).view.emb j
      = ix2 (⟨win0_6.index t (0 : Fin 2) * 5000 + (j 0).val, by have hj0 : (j 0).val < 5000 := (j 0).isLt; omega⟩ : Fin 50000) (j 1) := by
    funext ax; apply Fin.ext
    match ax with
    | ⟨0, _⟩ => show win0_6.index t (0 : Fin 2) * 5000 + 1 * (j 0).val = win0_6.index t (0 : Fin 2) * 5000 + (j 0).val; omega
    | ⟨1, _⟩ => show win0_6.index t (1 : Fin 2) * 128 + 1 * (j 1).val = (j 1).val; omega
  show k0_pay1 (iblk0 V c 0 t) (iblk0 V c 1 t) (iblk0 V c 2 t) (iblk0 V c 3 t) (iblk0 V c 5 t) (iblk0 V c 4 t) j
    = G V c (((cfg0.win 6).blk t).view.emb j)
  rw [hemb, hj]
  refine pay_rows _ _ _ _ _ _ (iblk0 V c 0 t) (iblk0 V c 2 t) (iblk0 V c 1 t) (iblk0 V c 3 t) (iblk0 V c 5 t) (iblk0 V c 4 t)
    (win0_6.index t (0 : Fin 2) * 5000) (by omega) ?_ ?_ ?_ ?_ ?_ ?_ (j 0) (j 1)
  · intro a c'
    show V c main_call0_v20 (((cfg0.win 0).blk t).view.emb (ix2 a c')) = _
    refine congrArg _ ?_
    funext ax; apply Fin.ext
    match ax with
    | ⟨0, _⟩ => show win0_0.index t (0 : Fin 2) * 5000 + 1 * a.val = win0_6.index t (0 : Fin 2) * 5000 + a.val; omega
    | ⟨1, _⟩ => show win0_0.index t (1 : Fin 2) * 128 + 1 * c'.val = c'.val; omega
  · intro a
    show V c main_call0_v21 (((cfg0.win 1).blk t).view.emb (ix2 a (0 : Fin 1))) = _
    refine congrArg _ ?_
    funext ax; apply Fin.ext
    match ax with
    | ⟨0, _⟩ => show win0_1.index t (0 : Fin 2) * 5000 + 1 * a.val = win0_6.index t (0 : Fin 2) * 5000 + a.val; omega
    | ⟨1, _⟩ => show win0_1.index t (1 : Fin 2) * 1 + 1 * 0 = 0; omega
  · intro a c'
    show V c main_arg0 (((cfg0.win 2).blk t).view.emb (ix2 a c')) = _
    refine congrArg _ ?_
    funext ax; apply Fin.ext
    match ax with
    | ⟨0, _⟩ => show win0_2.index t (0 : Fin 2) * 5000 + 1 * a.val = win0_6.index t (0 : Fin 2) * 5000 + a.val; omega
    | ⟨1, _⟩ => show win0_2.index t (1 : Fin 2) * 128 + 1 * c'.val = c'.val; omega
  · intro c' d'
    show V c main_arg3 (((cfg0.win 3).blk t).view.emb (ix2 c' d')) = _
    refine congrArg _ ?_
    funext ax; apply Fin.ext
    match ax with
    | ⟨0, _⟩ => show win0_3.index t (0 : Fin 2) * 128 + 1 * c'.val = c'.val; omega
    | ⟨1, _⟩ => show win0_3.index t (1 : Fin 2) * 128 + 1 * d'.val = d'.val; omega
  · intro c' d'
    show V c main_arg5 (((cfg0.win 5).blk t).view.emb (ix2 c' d')) = _
    refine congrArg _ ?_
    funext ax; apply Fin.ext
    match ax with
    | ⟨0, _⟩ => show win0_5.index t (0 : Fin 2) * 128 + 1 * c'.val = c'.val; omega
    | ⟨1, _⟩ => show win0_5.index t (1 : Fin 2) * 128 + 1 * d'.val = d'.val; omega
  · intro d'
    show V c main_call0_v22 (((cfg0.win 4).blk t).view.emb (ix2 (0 : Fin 1) d')) = _
    refine congrArg _ ?_
    funext ax; apply Fin.ext
    match ax with
    | ⟨0, _⟩ => show win0_4.index t (0 : Fin 2) * 1 + 1 * 0 = 0; omega
    | ⟨1, _⟩ => show win0_4.index t (1 : Fin 2) * 128 + 1 * d'.val = d'.val; omega

/-- An entry of the output array is in point `t`'s block iff each coordinate is in the block's range. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_call0_v23).slice (win0_6.rect t)).set ↔ _
  rw [View.set_slice_whole, Rect.mem_set_unit]
  exact Iff.rfl

/-- The ten blocks tile the array: row r is in the block of the point whose row block index is r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the launch the output array is the layer of the arrays the launch found. -/
theorem final (c : Dev nD) : (dat0 (F := Ideal) V c).arrAt 6 cfg0.N = G V c :=
  (dat0 (F := Ideal) V c).arrAt_eq_of_cover 6 (G V c) (fun t _ => flushed_eq V c t) (cover)

end Cert.KernelIdeal.Layer0

end
-- ==== Proof.Layer1.lean ====
/-
  Launch 1 of the kernel: one layer's dense part, computed a block of 5000 rows at a time over a grid of 10 points.

  Point t reads rows 5000·t … 5000·t+4999 of the neighbourhood sums, of the column of reciprocal degrees and of the
  layer's input, and the two weight matrices and the bias row whole; it stores rows 5000·t … 5000·t+4999 of the output.
  What it stores at entry (a, d) of its block is entry (5000·t + a, d) of the layer taken on the whole arrays
  (`Cert.Sage.conv`, rectified): the row sums run over the same terms in the same order. The ten blocks tile the 50000 rows, so after the
  launch the output array IS the layer of the arrays the launch found.
-/
import proofs.«131074_j11450382811606_2_alg».proof.Proof.Gen.KernelIdeal.Frame
import proofs.«131074_j11450382811606_2_alg».proof.Proof.LibSageLayer
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense Cert.Layers Cert.Sage

theorem hz : (![0, 0] : Fin 2 → Nat) = fun _ => 0 := funext fun a => by fin_cases a <;> rfl

/-- The value the body stores, at entry (a, d) of the block of rows o … o+4999, is entry (o + a, d) of the layer. -/
theorem pay_rows (A X : FVec Ideal S50000x128 .f32) (s : FVec Ideal S50000x1 .f32) (P Q : FVec Ideal S128x128 .f32)
    (b : FVec Ideal S1x128 .f32)
    (x0 x2 : Vec Ideal S5000x128 .f32) (x1 : Vec Ideal S5000x1 .f32) (x3 x5 : Vec Ideal S128x128 .f32) (x4 : Vec Ideal S1x128 .f32)
    (o : ℕ) (ho : o + 5000 ≤ 50000)
    (h0 : ∀ (a : Fin 5000) (c : Fin 128), x0 (ix2 a c) = A (ix2 (⟨o + a.val, by have := a.isLt; omega⟩ : Fin 50000) c))
    (h1 : ∀ a : Fin 5000, x1 (ix2 a (0 : Fin 1)) = s (ix2 (⟨o + a.val, by have := a.isLt; omega⟩ : Fin 50000) (0 : Fin 1)))
    (h2 : ∀ (a : Fin 5000) (c : Fin 128), x2 (ix2 a c) = X (ix2 (⟨o + a.val, by have := a.isLt; omega⟩ : Fin 50000) c))
    (h3 : ∀ c d : Fin 128, x3 (ix2 c d) = P (ix2 c d))
    (h5 : ∀ c d : Fin 128, x5 (ix2 c d) = Q (ix2 c d))
    (h4 : ∀ d : Fin 128, x4 (ix2 (0 : Fin 1) d) = b (ix2 (0 : Fin 1) d))
    (a : Fin 5000) (d : Fin 128) :
    k1_pay1 (F := Ideal) x0 x1 x2 x3 x5 x4 (ix2 a d)
      = rect (conv A s X P Q b) (ix2 (⟨o + a.val, by have := a.isLt; omega⟩ : Fin 50000) d) := by
  unfold k1_pay1
  refine (maximumf_apply _ _ _).trans ?_
  refine congrArg₂ max ?_ rfl
  exact proj_rows (M := 50000) dot_S5000x128_S128x128_S5000x128_1_0_0_1_n_n.wf none (scaleRows A s) X P Q b _ _ _ _ _
    broadcasts_S1x128_S5000x128 o ho
    (fun a c => by
      rw [truncf_apply, mulf_apply, shapeCast_self, Cert.Lib.MatDot.broadcastTo_col_apply, shapeCast_self, h0 a c, h1 a,
        scaleRows_apply])
    (fun c d => by rw [truncf_apply, h3])
    (fun a c => by rw [truncf_apply, shapeCast_self, h2])
    (fun c d => by rw [truncf_apply, h5])
    (fun d => by rw [shapeCast_self, h4]) a d

variable (V : (c : Dev nD) → (b : Ref sig .tc) → Buf (Elt Ideal) ((c : Thread nD τ).loc b))

/-- The layer of the arrays the launch finds. -/
def G (c : Dev nD) : S50000x128.Idx → EReal :=
  rect (conv (M := 50000) (k := 128) (n := 128) (V c main_call0_v33 : S50000x128.Idx → EReal) (V c main_call0_v34 : S50000x1.Idx → EReal)
    (V c main_call0_v23 : S50000x128.Idx → EReal) (V c main_arg6 : S128x128.Idx → EReal) (V c main_arg8 : S128x128.Idx → EReal)
    (V c main_call0_v35 : S1x128.Idx → EReal))

/-- The index maps over the grid: the three row-blocked inputs move with the output along the rows, nothing moves along
    the columns, the weights and the bias stay put, and the output's row block index is at most 9. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every row block is some point's. -/
theorem idx_onto : ∀ q : Fin 10, ∃ t : Fin cfg1.N, win1_6.index t = ![q.val, 0] :=
  (by decide +kernel : ∀ q : Fin 10, ∃ t : Fin grid1.N, win1_6.index t = ![q.val, 0])

/-- What point `t` writes back is block `t` of the layer of the arrays the launch finds. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e61, e6le⟩ := idx_facts t
  funext j
  have hj : (j : S5000x128.Idx) = ix2 (j 0) (j 1) := eq_ix2 (n0 := 5000) (n1 := 128) j
  have hemb : ((cfg1.win 6).blk t).view.emb j
      = ix2 (⟨win1_6.index t (0 : Fin 2) * 5000 + (j 0).val, by have hj0 : (j 0).val < 5000 := (j 0).isLt; omega⟩ : Fin 50000) (j 1) := by
    funext ax; apply Fin.ext
    match ax with
    | ⟨0, _⟩ => show win1_6.index t (0 : Fin 2) * 5000 + 1 * (j 0).val = win1_6.index t (0 : Fin 2) * 5000 + (j 0).val; omega
    | ⟨1, _⟩ => show win1_6.index t (1 : Fin 2) * 128 + 1 * (j 1).val = (j 1).val; omega
  show k1_pay1 (iblk1 V c 0 t) (iblk1 V c 1 t) (iblk1 V c 2 t) (iblk1 V c 3 t) (iblk1 V c 5 t) (iblk1 V c 4 t) j
    = G V c (((cfg1.win 6).blk t).view.emb j)
  rw [hemb, hj]
  refine pay_rows _ _ _ _ _ _ (iblk1 V c 0 t) (iblk1 V c 2 t) (iblk1 V c 1 t) (iblk1 V c 3 t) (iblk1 V c 5 t) (iblk1 V c 4 t)
    (win1_6.index t (0 : Fin 2) * 5000) (by omega) ?_ ?_ ?_ ?_ ?_ ?_ (j 0) (j 1)
  · intro a c'
    show V c main_call0_v33 (((cfg1.win 0).blk t).view.emb (ix2 a c')) = _
    refine congrArg _ ?_
    funext ax; apply Fin.ext
    match ax with
    | ⟨0, _⟩ => show win1_0.index t (0 : Fin 2) * 5000 + 1 * a.val = win1_6.index t (0 : Fin 2) * 5000 + a.val; omega
    | ⟨1, _⟩ => show win1_0.index t (1 : Fin 2) * 128 + 1 * c'.val = c'.val; omega
  · intro a
    show V c main_call0_v34 (((cfg1.win 1).blk t).view.emb (ix2 a (0 : Fin 1))) = _
    refine congrArg _ ?_
    funext ax; apply Fin.ext
    match ax with
    | ⟨0, _⟩ => show win1_1.index t (0 : Fin 2) * 5000 + 1 * a.val = win1_6.index t (0 : Fin 2) * 5000 + a.val; omega
    | ⟨1, _⟩ => show win1_1.index t (1 : Fin 2) * 1 + 1 * 0 = 0; omega
  · intro a c'
    show V c main_call0_v23 (((cfg1.win 2).blk t).view.emb (ix2 a c')) = _
    refine congrArg _ ?_
    funext ax; apply Fin.ext
    match ax with
    | ⟨0, _⟩ => show win1_2.index t (0 : Fin 2) * 5000 + 1 * a.val = win1_6.index t (0 : Fin 2) * 5000 + a.val; omega
    | ⟨1, _⟩ => show win1_2.index t (1 : Fin 2) * 128 + 1 * c'.val = c'.val; omega
  · intro c' d'
    show V c main_arg6 (((cfg1.win 3).blk t).view.emb (ix2 c' d')) = _
    refine congrArg _ ?_
    funext ax; apply Fin.ext
    match ax with
    | ⟨0, _⟩ => show win1_3.index t (0 : Fin 2) * 128 + 1 * c'.val = c'.val; omega
    | ⟨1, _⟩ => show win1_3.index t (1 : Fin 2) * 128 + 1 * d'.val = d'.val; omega
  · intro c' d'
    show V c main_arg8 (((cfg1.win 5).blk t).view.emb (ix2 c' d')) = _
    refine congrArg _ ?_
    funext ax; apply Fin.ext
    match ax with
    | ⟨0, _⟩ => show win1_5.index t (0 : Fin 2) * 128 + 1 * c'.val = c'.val; omega
    | ⟨1, _⟩ => show win1_5.index t (1 : Fin 2) * 128 + 1 * d'.val = d'.val; omega
  · intro d'
    show V c main_call0_v35 (((cfg1.win 4).blk t).view.emb (ix2 (0 : Fin 1) d')) = _
    refine congrArg _ ?_
    funext ax; apply Fin.ext
    match ax with
    | ⟨0, _⟩ => show win1_4.index t (0 : Fin 2) * 1 + 1 * 0 = 0; omega
    | ⟨1, _⟩ => show win1_4.index t (1 : Fin 2) * 128 + 1 * d'.val = d'.val; omega

/-- An entry of the output array is in point `t`'s block iff each coordinate is in the block's range. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_call0_v36).slice (win1_6.rect t)).set ↔ _
  rw [View.set_slice_whole, Rect.mem_set_unit]
  exact Iff.rfl

/-- The ten blocks tile the array: row r is in the block of the point whose row block index is r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the launch the output array is the layer of the arrays the launch found. -/
theorem final (c : Dev nD) : (dat1 (F := Ideal) V c).arrAt 6 cfg1.N = G V c :=
  (dat1 (F := Ideal) V c).arrAt_eq_of_cover 6 (G V c) (fun t _ => flushed_eq V c t) (cover)

end Cert.KernelIdeal.Layer1

end
-- ==== Proof.Layer2.lean ====
/-
  Launch 2 of the kernel: one layer's dense part, computed a block of 5000 rows at a time over a grid of 10 points.

  Point t reads rows 5000·t … 5000·t+4999 of the neighbourhood sums, of the column of reciprocal degrees and of the
  layer's input, and the two weight matrices and the bias row whole; it stores rows 5000·t … 5000·t+4999 of the output.
  What it stores at entry (a, d) of its block is entry (5000·t + a, d) of the layer taken on the whole arrays
  (`Cert.Sage.conv`): the row sums run over the same terms in the same order. The ten blocks tile the 50000 rows, so after the
  launch the output array IS the layer of the arrays the launch found.
-/
import proofs.«131074_j11450382811606_2_alg».proof.Proof.Gen.KernelIdeal.Frame
import proofs.«131074_j11450382811606_2_alg».proof.Proof.LibSageLayer
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense Cert.Layers Cert.Sage

theorem hz : (![0, 0] : Fin 2 → Nat) = fun _ => 0 := funext fun a => by fin_cases a <;> rfl

/-- The value the body stores, at entry (a, d) of the block of rows o … o+4999, is entry (o + a, d) of the layer. -/
theorem pay_rows (A X : FVec Ideal S50000x128 .f32) (s : FVec Ideal S50000x1 .f32) (P Q : FVec Ideal S128x128 .f32)
    (b : FVec Ideal S1x128 .f32)
    (x0 x2 : Vec Ideal S5000x128 .f32) (x1 : Vec Ideal S5000x1 .f32) (x3 x5 : Vec Ideal S128x128 .f32) (x4 : Vec Ideal S1x128 .f32)
    (o : ℕ) (ho : o + 5000 ≤ 50000)
    (h0 : ∀ (a : Fin 5000) (c : Fin 128), x0 (ix2 a c) = A (ix2 (⟨o + a.val, by have := a.isLt; omega⟩ : Fin 50000) c))
    (h1 : ∀ a : Fin 5000, x1 (ix2 a (0 : Fin 1)) = s (ix2 (⟨o + a.val, by have := a.isLt; omega⟩ : Fin 50000) (0 : Fin 1)))
    (h2 : ∀ (a : Fin 5000) (c : Fin 128), x2 (ix2 a c) = X (ix2 (⟨o + a.val, by have := a.isLt; omega⟩ : Fin 50000) c))
    (h3 : ∀ c d : Fin 128, x3 (ix2 c d) = P (ix2 c d))
    (h5 : ∀ c d : Fin 128, x5 (ix2 c d) = Q (ix2 c d))
    (h4 : ∀ d : Fin 128, x4 (ix2 (0 : Fin 1) d) = b (ix2 (0 : Fin 1) d))
    (a : Fin 5000) (d : Fin 128) :
    k2_pay1 (F := Ideal) x0 x1 x2 x3 x5 x4 (ix2 a d)
      = (conv A s X P Q b) (ix2 (⟨o + a.val, by have := a.isLt; omega⟩ : Fin 50000) d) := by
  unfold k2_pay1
  exact proj_rows (M := 50000) dot_S5000x128_S128x128_S5000x128_1_0_0_1_n_n.wf none (scaleRows A s) X P Q b _ _ _ _ _
    broadcasts_S1x128_S5000x128 o ho
    (fun a c => by
      rw [truncf_apply, mulf_apply, shapeCast_self, Cert.Lib.MatDot.broadcastTo_col_apply, shapeCast_self, h0 a c, h1 a,
        scaleRows_apply])
    (fun c d => by rw [truncf_apply, h3])
    (fun a c => by rw [truncf_apply, shapeCast_self, h2])
    (fun c d => by rw [truncf_apply, h5])
    (fun d => by rw [shapeCast_self, h4]) a d

variable (V : (c : Dev nD) → (b : Ref sig .tc) → Buf (Elt Ideal) ((c : Thread nD τ).loc b))

/-- The layer of the arrays the launch finds. -/
def G (c : Dev nD) : S50000x128.Idx → EReal :=
  (conv (M := 50000) (k := 128) (n := 128) (V c main_call0_v46 : S50000x128.Idx → EReal) (V c main_call0_v47 : S50000x1.Idx → EReal)
    (V c main_call0_v36 : S50000x128.Idx → EReal) (V c main_arg9 : S128x128.Idx → EReal) (V c main_arg11 : S128x128.Idx → EReal)
    (V c main_call0_v48 : S1x128.Idx → EReal))

/-- The index maps over the grid: the three row-blocked inputs move with the output along the rows, nothing moves along
    the columns, the weights and the bias stay put, and the output's row block index is at most 9. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every row block is some point's. -/
theorem idx_onto : ∀ q : Fin 10, ∃ t : Fin cfg2.N, win2_6.index t = ![q.val, 0] :=
  (by decide +kernel : ∀ q : Fin 10, ∃ t : Fin grid2.N, win2_6.index t = ![q.val, 0])

/-- What point `t` writes back is block `t` of the layer of the arrays the launch finds. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e61, e6le⟩ := idx_facts t
  funext j
  have hj : (j : S5000x128.Idx) = ix2 (j 0) (j 1) := eq_ix2 (n0 := 5000) (n1 := 128) j
  have hemb : ((cfg2.win 6).blk t).view.emb j
      = ix2 (⟨win2_6.index t (0 : Fin 2) * 5000 + (j 0).val, by have hj0 : (j 0).val < 5000 := (j 0).isLt; omega⟩ : Fin 50000) (j 1) := by
    funext ax; apply Fin.ext
    match ax with
    | ⟨0, _⟩ => show win2_6.index t (0 : Fin 2) * 5000 + 1 * (j 0).val = win2_6.index t (0 : Fin 2) * 5000 + (j 0).val; omega
    | ⟨1, _⟩ => show win2_6.index t (1 : Fin 2) * 128 + 1 * (j 1).val = (j 1).val; omega
  show k2_pay1 (iblk2 V c 0 t) (iblk2 V c 1 t) (iblk2 V c 2 t) (iblk2 V c 3 t) (iblk2 V c 5 t) (iblk2 V c 4 t) j
    = G V c (((cfg2.win 6).blk t).view.emb j)
  rw [hemb, hj]
  refine pay_rows _ _ _ _ _ _ (iblk2 V c 0 t) (iblk2 V c 2 t) (iblk2 V c 1 t) (iblk2 V c 3 t) (iblk2 V c 5 t) (iblk2 V c 4 t)
    (win2_6.index t (0 : Fin 2) * 5000) (by omega) ?_ ?_ ?_ ?_ ?_ ?_ (j 0) (j 1)
  · intro a c'
    show V c main_call0_v46 (((cfg2.win 0).blk t).view.emb (ix2 a c')) = _
    refine congrArg _ ?_
    funext ax; apply Fin.ext
    match ax with
    | ⟨0, _⟩ => show win2_0.index t (0 : Fin 2) * 5000 + 1 * a.val = win2_6.index t (0 : Fin 2) * 5000 + a.val; omega
    | ⟨1, _⟩ => show win2_0.index t (1 : Fin 2) * 128 + 1 * c'.val = c'.val; omega
  · intro a
    show V c main_call0_v47 (((cfg2.win 1).blk t).view.emb (ix2 a (0 : Fin 1))) = _
    refine congrArg _ ?_
    funext ax; apply Fin.ext
    match ax with
    | ⟨0, _⟩ => show win2_1.index t (0 : Fin 2) * 5000 + 1 * a.val = win2_6.index t (0 : Fin 2) * 5000 + a.val; omega
    | ⟨1, _⟩ => show win2_1.index t (1 : Fin 2) * 1 + 1 * 0 = 0; omega
  · intro a c'
    show V c main_call0_v36 (((cfg2.win 2).blk t).view.emb (ix2 a c')) = _
    refine congrArg _ ?_
    funext ax; apply Fin.ext
    match ax with
    | ⟨0, _⟩ => show win2_2.index t (0 : Fin 2) * 5000 + 1 * a.val = win2_6.index t (0 : Fin 2) * 5000 + a.val; omega
    | ⟨1, _⟩ => show win2_2.index t (1 : Fin 2) * 128 + 1 * c'.val = c'.val; omega
  · intro c' d'
    show V c main_arg9 (((cfg2.win 3).blk t).view.emb (ix2 c' d')) = _
    refine congrArg _ ?_
    funext ax; apply Fin.ext
    match ax with
    | ⟨0, _⟩ => show win2_3.index t (0 : Fin 2) * 128 + 1 * c'.val = c'.val; omega
    | ⟨1, _⟩ => show win2_3.index t (1 : Fin 2) * 128 + 1 * d'.val = d'.val; omega
  · intro c' d'
    show V c main_arg11 (((cfg2.win 5).blk t).view.emb (ix2 c' d')) = _
    refine congrArg _ ?_
    funext ax; apply Fin.ext
    match ax with
    | ⟨0, _⟩ => show win2_5.index t (0 : Fin 2) * 128 + 1 * c'.val = c'.val; omega
    | ⟨1, _⟩ => show win2_5.index t (1 : Fin 2) * 128 + 1 * d'.val = d'.val; omega
  · intro d'
    show V c main_call0_v48 (((cfg2.win 4).blk t).view.emb (ix2 (0 : Fin 1) d')) = _
    refine congrArg _ ?_
    funext ax; apply Fin.ext
    match ax with
    | ⟨0, _⟩ => show win2_4.index t (0 : Fin 2) * 1 + 1 * 0 = 0; omega
    | ⟨1, _⟩ => show win2_4.index t (1 : Fin 2) * 128 + 1 * d'.val = d'.val; omega

/-- An entry of the output array is in point `t`'s block iff each coordinate is in the block's range. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_call0_v49).slice (win2_6.rect t)).set ↔ _
  rw [View.set_slice_whole, Rect.mem_set_unit]
  exact Iff.rfl

/-- The ten blocks tile the array: row r is in the block of the point whose row block index is r / 5000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the launch the output array is the layer of the arrays the launch found. -/
theorem final (c : Dev nD) : (dat2 (F := Ideal) V c).arrAt 6 cfg2.N = G V c :=
  (dat2 (F := Ideal) V c).arrAt_eq_of_cover 6 (G V c) (fun t _ => flushed_eq V c t) (cover)

end Cert.KernelIdeal.Layer2

end
-- ==== Proof.LibKeepdims.lean ====
/-
  The keepdims column forms of the vector unit, read at an entry: a vector of `a` entries cast to a column `[a, 1]`
  reads, at `(p, u)`, the vector at `p`; a column `[a, 1]` laid across `b` columns reads, at `(p, c)`, the column at
  `p`. And a row maximum and a row sum of an `[a, b]` array at the ideal values: the fold of `max` from the
  accumulator's value, and the sum, over the row's entries.
-/
import Idealize.ShloMosaic.PureOps.Ideal.Laws
import Idealize.ShloMosaic.Lib.ValueIdx
import Idealize.ShloMosaic.Lib.Pipeline.Value

noncomputable section

open scoped BigOperators

namespace Cert.Lib.Keepdims

open Idealize.ShloMosaic Idealize.ShloMosaic.ValueIdx

variable {α : Type}

/-- A vector cast to a column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column laid across `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of an `[a, b]` array with entry `c` put back is the entry `(p, c)`. -/
theorem lift_row {a b : ℕ} (h : (⟨2, ![a, b]⟩ : Shape).Reduces [1] ⟨1, ![a]⟩) (p : Fin a) (c : Fin b) :
    h.lift (ix1 p) c = ix2 p c := by
  funext ax; apply Fin.ext
  match ax with
  | ⟨0, _⟩ => rfl
  | ⟨1, _⟩ => rfl

/-- The f32 word of minus infinity is the bottom element. -/
theorem word_ninf : Ideal.ofBits .f32 0xFF800000#32 = (⊥ : EReal) := by
  simp [Ideal.ofBits, Ideal.ieee]

/-- The row maximum from minus infinity is the fold of `max` from the bottom element over the row. -/
theorem rowMax_apply {a b : ℕ} (h : (⟨2, ![a, b]⟩ : Shape).Reduces [1] ⟨1, ![a]⟩) (hφ : FKind.Formats .f32)
    (hacc : (0xFF800000#32 : BitVec 32) = FKind.maximumf.neutral .f32 hφ) (z : FVec Ideal ⟨2, ![a, b]⟩ .f32) (p : Fin a) :
    multiReduction .maximumf [1] ⟨1, ![a]⟩ z 0xFF800000#32 h hφ hacc (ix1 p)
      = (Finset.univ : Finset (Fin b)).fold max ⊥ fun c => z (ix2 p c) := by
  refine (Ideal.multiReduction_maximumf_single z 0xFF800000#32 h hφ hacc (ix1 p)).trans ?_
  have hf : (z ∘ h.lift (ix1 p)) = fun c : Fin b => z (ix2 p c) := funext fun c => congrArg z (lift_row h p c)
  show (Finset.univ : Finset (Fin b)).fold max (Ideal.ofBits .f32 0xFF800000#32) (z ∘ h.lift (ix1 p)) = _
  rw [word_ninf, hf]
  rfl

/-- The row sum from zero is the sum over the row. -/
theorem rowSum_apply {a b : ℕ} (h : (⟨2, ![a, b]⟩ : Shape).Reduces [1] ⟨1, ![a]⟩) (hφ : FKind.Formats .f32)
    (hacc : (0x00000000#32 : BitVec 32) = FKind.add.neutral .f32 hφ) (y : FVec Ideal ⟨2, ![a, b]⟩ .f32) (p : Fin a) :
    multiReduction .add [1] ⟨1, ![a]⟩ y 0x00000000#32 h hφ hacc (ix1 p) = ∑ c : Fin b, y (ix2 p c) := by
  refine (Ideal.multiReduction_add_single y 0x00000000#32 h hφ hacc (ix1 p)).trans ?_
  exact Finset.sum_congr rfl fun c _ => congrArg y (lift_row h p c)

end Cert.Lib.Keepdims

end
-- ==== Proof.LibSoftmaxHead.lean ====
/-
  The classification head as a function of whole arrays, entry by entry, on the extended reals (general in the extents).

    rowTop z p       max (−∞, the maximum of row p of z): the number the softmax subtracts from row p;
    softmax z        entry (p, c) is  exp (z (p, c) − rowTop z p)  /  ∑ c', exp (z (p, c') − rowTop z p);
    head g W1 b1 W2 b2   softmax of  (max (g·W1 + b1, 0))·W2 + b2,  the biases one-row matrices.

  The vector unit computes the row maximum and the row sum with its lane reductions and lays them back over the row
  through a column; the host computes them with its reduce operations and two broadcasts. Entry by entry both are the
  fold of max from −∞ and the sum over the row's entries, so both spell `softmax`: the same operations on the same
  numbers in the same order, and no law of arithmetic is needed.
  (It imports this directory's copies of LibSageLayer.lean — and through it the five files that one imports — and LibKeepdims.lean.)
-/
import proofs.«131074_j11450382811606_2_alg».proof.Proof.LibSageLayer
import proofs.«131074_j11450382811606_2_alg».proof.Proof.LibKeepdims
import Idealize.ShloMosaic.PureOps.Reduce

noncomputable section

open scoped BigOperators

namespace Cert.Sage

open Idealize.ShloMosaic Idealize.ShloMosaic.ValueIdx Cert.Dense Cert.Lib.Keepdims Cert.Lib.MatDot

variable {a b : ℕ}

/-- What the softmax subtracts from row `p`: the row's maximum, taken from minus infinity. -/
def rowTop (z : FVec Ideal ⟨2, ![a, b]⟩ .f32) (p : Fin a) : EReal :=
  max (Ideal.ofBits .f32 0xFF800000#32) ((Finset.univ : Finset (Fin b)).fold max ⊥ fun c => z (ix2 p c))

/-- The softmax along the rows. -/
def softmax (z : FVec Ideal ⟨2, ![a, b]⟩ .f32) : FVec Ideal ⟨2, ![a, b]⟩ .f32 :=
  fun i => Ideal.div (Ideal.exp (z i - rowTop z (⟨(i 0).val, idx2_lt0 i⟩ : Fin a)))
    (∑ c : Fin b, Ideal.exp (z (ix2 (⟨(i 0).val, idx2_lt0 i⟩ : Fin a) c) - rowTop z (⟨(i 0).val, idx2_lt0 i⟩ : Fin a)))

theorem softmax_apply (z : FVec Ideal ⟨2, ![a, b]⟩ .f32) (p : Fin a) (c : Fin b) :
    softmax z (ix2 p c) = Ideal.div (Ideal.exp (z (ix2 p c) - rowTop z p)) (∑ c' : Fin b, Ideal.exp (z (ix2 p c') - rowTop z p)) := rfl

/-- The head: two dense steps, the first rectified, then the softmax. -/
def head {G k h o : ℕ} (g : FVec Ideal ⟨2, ![G, k]⟩ .f32) (W1 : FVec Ideal ⟨2, ![k, h]⟩ .f32) (b1 : FVec Ideal ⟨2, ![1, h]⟩ .f32)
    (W2 : FVec Ideal ⟨2, ![h, o]⟩ .f32) (b2 : FVec Ideal ⟨2, ![1, o]⟩ .f32) : FVec Ideal ⟨2, ![G, o]⟩ .f32 :=
  softmax (addRow (matProd (addRowRelu (matProd g W1) b1) W2) b2)

/-! ## The vector unit's spelling -/

/-- The row maximum from −∞, maximum with −∞ again, cast to a column and laid across the row: at (p, c) it is `rowTop z p`. -/
theorem top_vec (z : FVec Ideal ⟨2, ![a, b]⟩ .f32) (hr : (⟨2, ![a, b]⟩ : Shape).Reduces [1] ⟨1, ![a]⟩) (hφ : FKind.Formats .f32)
    (hm : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (maximumf (broadcast ⟨1, ![a]⟩ (Scalar.ofBits (F := Ideal) .f32 0xFF800000#32))
      (multiReduction .maximumf [1] ⟨1, ![a]⟩ z 0xFF800000#32 hr hφ hm)) hc) hb (ix2 p c) = rowTop z p := by
  rw [broadcastTo_a1_ab_apply, shapeCast_a_a1_apply, maximumf_apply, broadcast_apply, rowMax_apply]
  rfl

/-- Exponentials of the row shifted by `T`, divided by their row sum laid back over the row, is the softmax when `T` is `rowTop`. -/
theorem softmax_vec_of (z T : FVec Ideal ⟨2, ![a, b]⟩ .f32) (hT : ∀ (p : Fin a) (c : Fin b), T (ix2 p c) = rowTop z p)
    (hr : (⟨2, ![a, b]⟩ : Shape).Reduces [1] ⟨1, ![a]⟩) (hφ : FKind.Formats .f32)
    (hs : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    divf (exp (subf z T)) (broadcastTo ⟨2, ![a, b]⟩ (shapeCast ⟨2, ![a, 1]⟩
      (multiReduction .add [1] ⟨1, ![a]⟩ (exp (subf z T)) 0x00000000#32 hr hφ hs) hc) hb) = softmax z := by
  funext i
  obtain ⟨p, c, rfl⟩ : ∃ (p : Fin a) (c : Fin b), i = ix2 p c := ⟨i 0, i 1, eq_ix2 i⟩
  have hE : ∀ c' : Fin b, exp (subf z T) (ix2 p c') = Ideal.exp (z (ix2 p c') - rowTop z p) := fun c' => by
    show Ideal.exp (z (ix2 p c') - T (ix2 p c')) = _
    rw [hT]
  rw [divf_apply, broadcastTo_a1_ab_apply, shapeCast_a_a1_apply, rowSum_apply, hE c, softmax_apply]
  exact congrArg _ (Finset.sum_congr rfl fun c' _ => hE c')

/-! ## The host's spelling -/

/-- A vector of `a` entries made a column along axis 0 by the host reads, at `(p, u)`, the vector at `p`. -/
theorem broadcastInDim_vec_col_apply {α : Type} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's row maximum from −∞, maximum with −∞ again, made a column and laid across the row: `rowTop z p` at (p, c). -/
theorem top_host (z : FVec Ideal ⟨2, ![a, b]⟩ .f32) (h' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![]) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1
      (maximumf (broadcastInDim ⟨1, ![a]⟩ ![] h0 (constant (F := Ideal) ⟨0, ![]⟩ .f32 0xFF800000#32))
        (Host.reduce (FloatOps.maximumf (F := Ideal) (φ := .f32)) z (constant (F := Ideal) ⟨0, ![]⟩ .f32 0xFF800000#32) h' hu)))
      (ix2 p c) = rowTop z p := by
  haveI : Std.Commutative (FloatOps.maximumf (F := Ideal) (φ := .f32)) := ⟨fun x y => max_comm x y⟩
  haveI : Std.Associative (FloatOps.maximumf (F := Ideal) (φ := .f32)) := ⟨fun x y w => max_assoc x y w⟩
  rw [broadcastInDim_col_apply, broadcastInDim_vec_col_apply, maximumf_apply, broadcastInDim_scalar_apply,
    Host.reduce_eq_fold_single (FloatOps.maximumf (F := Ideal) (φ := .f32)) z _ h' hr hu (ix1 p)]
  have hf : (z ∘ hr.lift (ix1 p)) = fun c : Fin b => z (ix2 p c) := funext fun c => congrArg z (lift_row hr p c)
  show max (Ideal.ofBits .f32 0xFF800000#32)
    ((Finset.univ : Finset (Fin b)).fold max (Ideal.ofBits .f32 0xFF800000#32) (z ∘ hr.lift (ix1 p))) = _
  rw [hf]
  unfold rowTop
  rw [word_ninf]
  rfl

/-- The host's exponentials of the row shifted by `T`, divided by their row sum laid back over the row. -/
theorem softmax_host_of (z T : FVec Ideal ⟨2, ![a, b]⟩ .f32) (hT : ∀ (p : Fin a) (c : Fin b), T (ix2 p c) = rowTop z p)
    (h' : (⟨2, ![a, b]⟩ : Shape).ReducesTo [1] ⟨1, ![a]⟩) (hr : (⟨2, ![a, b]⟩ : Shape).Reduces [1] ⟨1, ![a]⟩)
    (hu : 0 < (⟨0, ![]⟩ : Shape).numel) (h1 : (⟨1, ![a]⟩ : Shape).BroadcastsInDim ⟨2, ![a, 1]⟩ ![0])
    (h2 : (⟨2, ![a, 1]⟩ : Shape).BroadcastsInDim ⟨2, ![a, b]⟩ ![0, 1]) :
    Host.divf (Host.exp (subf z T)) (broadcastInDim ⟨2, ![a, b]⟩ ![0, 1] h2 (broadcastInDim ⟨2, ![a, 1]⟩ ![0] h1
      (Host.reduceAdd (Host.exp (subf z T)) (constant (F := Ideal) ⟨0, ![]⟩ .f32 0x00000000#32) h' hu))) = softmax z := by
  funext i
  obtain ⟨p, c, rfl⟩ : ∃ (p : Fin a) (c : Fin b), i = ix2 p c := ⟨i 0, i 1, eq_ix2 i⟩
  have hE : ∀ c' : Fin b, Host.exp (subf z T) (ix2 p c') = Ideal.exp (z (ix2 p c') - rowTop z p) := fun c' => by
    show Ideal.exp (z (ix2 p c') - T (ix2 p c')) = _
    rw [hT]
  show Ideal.div (Host.exp (subf z T) (ix2 p c)) _ = _
  rw [broadcastInDim_col_apply, broadcastInDim_vec_col_apply, hE c, softmax_apply]
  refine congrArg _ ?_
  simp only [Host.reduceAdd, Ideal.hostReduceAdd_def]
  rw [Ideal.hostReduceAdd_single h' hr]
  show Ideal.ofBits .f32 0x00000000#32 + _ = _
  rw [Ideal.ofBits_zero_f32, zero_add]
  exact Finset.sum_congr rfl fun c' _ => (congrArg _ (lift_row hr p c')).trans (hE c')

end Cert.Sage

end
-- ==== Proof.HeadKernel.lean ====
/-
  Launch 3 of the kernel: the classification head on the 64 pooled rows, one grid point, every operand one whole block.

  The body multiplies the pooled rows by the first weight matrix, adds the first bias row and rectifies; multiplies by the
  second weight matrix and adds the second bias row; and takes the softmax along each row of three entries (the row
  maximum from −∞ and the row sum by the vector unit's lane reductions, laid back over the row through a column). Entry by
  entry this is `Cert.Sage.head` of the five arrays. The one block is the whole output array, so after the launch the
  output array IS the head of the arrays the launch found.
-/
import proofs.«131074_j11450382811606_2_alg».proof.Proof.Gen.KernelIdeal.Frame
import proofs.«131074_j11450382811606_2_alg».proof.Proof.LibSoftmaxHead
import Idealize.ShloMosaic.Lib.Pipeline.Value

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense Cert.Sage

theorem hz : (![0, 0] : Fin 2 → Nat) = fun _ => 0 := funext fun a => by fin_cases a <;> rfl

/-- The first dense step, rectified: the pooled rows times the first weights, plus the bias row, maximum with zero. -/
theorem hidden_eq (x0 : FVec Ideal S64x128 .f32) (x1 : FVec Ideal S128x64 .f32) (x2 : FVec Ideal S1x64 .f32) :
    maximumf (addf (matmul dot_S64x128_S128x64_S64x64_1_0_0_1_n_n none (truncf .bf16 x0 bitsLt_bf16_f32)
        (truncf .bf16 x1 bitsLt_bf16_f32) (constant S64x64 .f32 0x00000000#32)) (broadcastTo S64x64 x2 broadcasts_S1x64_S64x64))
      (broadcast S64x64 (Scalar.ofBits (F := Ideal) .f32 0x00000000#32))
    = addRowRelu (m := 64) (n := 64) (matProd (m := 64) (k := 128) (n := 64) x0 x1) x2 := by
  funext i
  obtain ⟨p, j, rfl⟩ : ∃ (p : Fin 64) (j : Fin 64), i = ix2 p j := ⟨i 0, i 1, eq_ix2 i⟩
  rw [maximumf_apply, addf_apply, broadcast_apply, broadcastTo_1b_ab_apply, addRowRelu_apply, matProd_apply]
  refine congrArg₂ max (congrArg₂ (· + ·) ?_ rfl) rfl
  exact Cert.Lib.MatDot.matmul_zero_apply dot_S64x128_S128x64_S64x64_1_0_0_1_n_n.wf none (truncf .bf16 x0 bitsLt_bf16_f32)
    (truncf .bf16 x1 bitsLt_bf16_f32) p j

/-- The second dense step: the hidden rows times the second weights, plus the bias row. -/
theorem logits_eq (H : FVec Ideal S64x64 .f32) (x3 : FVec Ideal S64x3 .f32) (x4 : FVec Ideal S1x3 .f32) :
    addf (matmul dot_S64x64_S64x3_S64x3_1_0_0_1_n_n none (truncf .bf16 H bitsLt_bf16_f32) (truncf .bf16 x3 bitsLt_bf16_f32)
        (constant S64x3 .f32 0x00000000#32)) (broadcastTo S64x3 x4 broadcasts_S1x3_S64x3)
    = addRow (m := 64) (n := 3) (matProd (m := 64) (k := 64) (n := 3) H x3) x4 := by
  funext i
  obtain ⟨p, j, rfl⟩ : ∃ (p : Fin 64) (j : Fin 3), i = ix2 p j := ⟨i 0, i 1, eq_ix2 i⟩
  rw [addf_apply, broadcastTo_1b_ab_apply, addRow_apply, matProd_apply]
  refine congrArg₂ (· + ·) ?_ rfl
  exact Cert.Lib.MatDot.matmul_zero_apply dot_S64x64_S64x3_S64x3_1_0_0_1_n_n.wf none (truncf .bf16 H bitsLt_bf16_f32)
    (truncf .bf16 x3 bitsLt_bf16_f32) p j

/-- The value the body stores is the head of its five loaded arrays. -/
theorem pay_eq (x0 : Vec Ideal S64x128 .f32) (x1 : Vec Ideal S128x64 .f32) (x2 : Vec Ideal S1x64 .f32) (x3 : Vec Ideal S64x3 .f32)
    (x4 : Vec Ideal S1x3 .f32) :
    k3_pay1 (F := Ideal) x0 x1 x2 x3 x4 = head (G := 64) (k := 128) (h := 64) (o := 3) x0 x1 x2 x3 x4 := by
  unfold k3_pay1
  simp only [shapeCast_self]
  rw [hidden_eq, logits_eq]
  exact softmax_vec_of _ _ (top_vec _ reduces_S64x3_S64 (.inl rfl) rfl shapeCasts_S64_S64x1 broadcasts_S64x1_S64x3)
    reduces_S64x3_S64 (.inl rfl) rfl shapeCasts_S64_S64x1 broadcasts_S64x1_S64x3

variable (V : (c : Dev nD) → (b : Ref sig .tc) → Buf (Elt Ideal) ((c : Thread nD τ).loc b))

/-- The head of the arrays the launch finds. -/
def G (c : Dev nD) : S64x3.Idx → EReal :=
  head (G := 64) (k := 128) (h := 64) (o := 3) (V c main_call0_v60 : S64x128.Idx → EReal) (V c main_arg12 : S128x64.Idx → EReal)
    (V c main_call0_v61 : S1x64.Idx → EReal) (V c main_arg14 : S64x3.Idx → EReal) (V c main_call0_v62 : S1x3.Idx → EReal)

/-- At the one grid point every window's block index is zero along both axes. -/
theorem idx_facts : ∀ t : Fin cfg3.N,
    win3_0.index t (0 : Fin 2) = 0 ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0 ∧ win3_3.index t (0 : Fin 2) = 0 ∧ win3_3.index t (1 : Fin 2) = 0
    ∧ win3_4.index t (0 : Fin 2) = 0 ∧ win3_4.index t (1 : Fin 2) = 0 ∧ win3_5.index t (0 : Fin 2) = 0 ∧ win3_5.index t (1 : Fin 2) = 0 :=
  (by decide +kernel : ∀ t : Fin grid3.N, _)

/-- What the point writes back is the whole of the head of the arrays the launch finds. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S64x128) hz, View.ld_unit_zero (S := S128x64) hz, View.ld_unit_zero (S := S1x64) hz,
    View.ld_unit_zero (S := S64x3) hz, View.ld_unit_zero (S := S1x3) hz]
  rw [pay_eq]
  obtain ⟨e00, e01, e10, e11, e20, e21, e30, e31, e40, e41, e50, e51⟩ := idx_facts t
  have h0 : (iblk3 V c 0 t : S64x128.Idx → EReal) = V c main_call0_v60 := by
    funext y
    show V c main_call0_v60 (((cfg3.win 0).blk t).view.emb y) = V c main_call0_v60 y
    refine congrArg _ ?_
    funext ax; apply Fin.ext
    match ax with
    | ⟨0, _⟩ => show win3_0.index t (0 : Fin 2) * 64 + 1 * (y 0).val = (y 0).val; omega
    | ⟨1, _⟩ => show win3_0.index t (1 : Fin 2) * 128 + 1 * (y 1).val = (y 1).val; omega
  have h1 : (iblk3 V c 1 t : S128x64.Idx → EReal) = V c main_arg12 := by
    funext y
    show V c main_arg12 (((cfg3.win 1).blk t).view.emb y) = V c main_arg12 y
    refine congrArg _ ?_
    funext ax; apply Fin.ext
    match ax with
    | ⟨0, _⟩ => show win3_1.index t (0 : Fin 2) * 128 + 1 * (y 0).val = (y 0).val; omega
    | ⟨1, _⟩ => show win3_1.index t (1 : Fin 2) * 64 + 1 * (y 1).val = (y 1).val; omega
  have h2 : (iblk3 V c 2 t : S1x64.Idx → EReal) = V c main_call0_v61 := by
    funext y
    show V c main_call0_v61 (((cfg3.win 2).blk t).view.emb y) = V c main_call0_v61 y
    refine congrArg _ ?_
    funext ax; apply Fin.ext
    match ax with
    | ⟨0, _⟩ => show win3_2.index t (0 : Fin 2) * 1 + 1 * (y 0).val = (y 0).val; omega
    | ⟨1, _⟩ => show win3_2.index t (1 : Fin 2) * 64 + 1 * (y 1).val = (y 1).val; omega
  have h3 : (iblk3 V c 3 t : S64x3.Idx → EReal) = V c main_arg14 := by
    funext y
    show V c main_arg14 (((cfg3.win 3).blk t).view.emb y) = V c main_arg14 y
    refine congrArg _ ?_
    funext ax; apply Fin.ext
    match ax with
    | ⟨0, _⟩ => show win3_3.index t (0 : Fin 2) * 64 + 1 * (y 0).val = (y 0).val; omega
    | ⟨1, _⟩ => show win3_3.index t (1 : Fin 2) * 3 + 1 * (y 1).val = (y 1).val; omega
  have h4 : (iblk3 V c 4 t : S1x3.Idx → EReal) = V c main_call0_v62 := by
    funext y
    show V c main_call0_v62 (((cfg3.win 4).blk t).view.emb y) = V c main_call0_v62 y
    refine congrArg _ ?_
    funext ax; apply Fin.ext
    match ax with
    | ⟨0, _⟩ => show win3_4.index t (0 : Fin 2) * 1 + 1 * (y 0).val = (y 0).val; omega
    | ⟨1, _⟩ => show win3_4.index t (1 : Fin 2) * 3 + 1 * (y 1).val = (y 1).val; omega
  funext j
  show head (G := 64) (k := 128) (h := 64) (o := 3) (iblk3 V c 0 t : S64x128.Idx → EReal) (iblk3 V c 1 t : S128x64.Idx → EReal)
      (iblk3 V c 2 t : S1x64.Idx → EReal) (iblk3 V c 3 t : S64x3.Idx → EReal) (iblk3 V c 4 t : S1x3.Idx → EReal) j
    = G V c (((cfg3.win 5).blk t).view.emb j)
  rw [h0, h1, h2, h3, h4]
  show G V c j = G V c (((cfg3.win 5).blk t).view.emb j)
  refine congrArg _ ?_
  symm
  funext ax; apply Fin.ext
  match ax with
  | ⟨0, _⟩ => show win3_5.index t (0 : Fin 2) * 64 + 1 * (j 0).val = (j 0).val; omega
  | ⟨1, _⟩ => show win3_5.index t (1 : Fin 2) * 3 + 1 * (j 1).val = (j 1).val; omega

/-- An entry of the output array is in the point's block iff each coordinate is in the block's range. -/
theorem mem_blk (t : Fin cfg3.N) (i : S64x3.Idx) :
    i ∈ ((cfg3.win 5).blk t).view.set ↔ ∀ a : Fin 2, win3_5.index t a * S64x3.size a ≤ (i a).val
      ∧ (i a).val < win3_5.index t a * S64x3.size a + S64x3.size a := by
  show i ∈ ((View.whole main_v0).slice (win3_5.rect t)).set ↔ _
  rw [View.set_slice_whole, Rect.mem_set_unit]
  exact Iff.rfl

/-- The one block is the whole array. -/
theorem cover (i : S64x3.Idx) : ∃ t : Fin cfg3.N, (cfg3.win 5).flush t = true ∧ i ∈ ((cfg3.win 5).blk t).view.set := by
  have hi0 : (i 0).val < 64 := (i 0).isLt
  have hi1 : (i 1).val < 3 := (i 1).isLt
  obtain ⟨e00, e01, e10, e11, e20, e21, e30, e31, e40, e41, e50, e51⟩ := idx_facts t3_0
  refine ⟨t3_0, flush3_5 t3_0, ?_⟩
  rw [mem_blk]
  intro a
  match a with
  | ⟨0, _⟩ => show win3_5.index t3_0 (0 : Fin 2) * 64 ≤ (i 0).val ∧ (i 0).val < win3_5.index t3_0 (0 : Fin 2) * 64 + 64; omega
  | ⟨1, _⟩ => show win3_5.index t3_0 (1 : Fin 2) * 3 ≤ (i 1).val ∧ (i 1).val < win3_5.index t3_0 (1 : Fin 2) * 3 + 3; omega

/-- After the launch the output array is the head of the arrays the launch found. -/
theorem final (c : Dev nD) : (dat3 (F := Ideal) V c).arrAt 5 cfg3.N = G V c :=
  (dat3 (F := Ideal) V c).arrAt_eq_of_cover 5 (G V c) (fun t _ => flushed_eq V c t) (cover)

end Cert.KernelIdeal.Head

end
-- ==== Proof.NetSpec.lean ====
/-
  The whole network as one function of its argument arrays, on the extended reals. The graph stages — the neighbourhood
  sums of a matrix of rows, the column of reciprocal clipped degrees, the per-graph means — enter as parameters: both
  programs compute them by the same host operations, and nothing here looks inside them.

    hid agg s x P Q b   one rectified layer:  max (conv (agg x) s x P Q b, 0);
    lin agg s x P Q b   the last layer, not rectified;
    net …               the head of the per-graph means of  lin ∘ hid ∘ hid  of the input rows.
-/
import proofs.«131074_j11450382811606_2_alg».proof.Proof.LibSoftmaxHead

noncomputable section

namespace Cert.Sage

open Idealize.ShloMosaic Idealize.ShloMosaic.ValueIdx

/-- One rectified layer. -/
def hid (agg : FVec Ideal ⟨2, ![50000, 128]⟩ .f32 → FVec Ideal ⟨2, ![50000, 128]⟩ .f32) (s : FVec Ideal ⟨2, ![50000, 1]⟩ .f32)
    (x : FVec Ideal ⟨2, ![50000, 128]⟩ .f32) (P Q : FVec Ideal ⟨2, ![128, 128]⟩ .f32) (b : FVec Ideal ⟨2, ![1, 128]⟩ .f32) :
    FVec Ideal ⟨2, ![50000, 128]⟩ .f32 :=
  rect (conv (agg x) s x P Q b)

/-- The last layer. -/
def lin (agg : FVec Ideal ⟨2, ![50000, 128]⟩ .f32 → FVec Ideal ⟨2, ![50000, 128]⟩ .f32) (s : FVec Ideal ⟨2, ![50000, 1]⟩ .f32)
    (x : FVec Ideal ⟨2, ![50000, 128]⟩ .f32) (P Q : FVec Ideal ⟨2, ![128, 128]⟩ .f32) (b : FVec Ideal ⟨2, ![1, 128]⟩ .f32) :
    FVec Ideal ⟨2, ![50000, 128]⟩ .f32 :=
  conv (agg x) s x P Q b

/-- The network. -/
def net (agg : FVec Ideal ⟨2, ![50000, 128]⟩ .f32 → FVec Ideal ⟨2, ![50000, 128]⟩ .f32) (s : FVec Ideal ⟨2, ![50000, 1]⟩ .f32)
    (pool : FVec Ideal ⟨2, ![50000, 128]⟩ .f32 → FVec Ideal ⟨2, ![64, 128]⟩ .f32)
    (x : FVec Ideal ⟨2, ![50000, 128]⟩ .f32)
    (P0 Q0 : FVec Ideal ⟨2, ![128, 128]⟩ .f32) (b0 : FVec Ideal ⟨2, ![1, 128]⟩ .f32)
    (P1 Q1 : FVec Ideal ⟨2, ![128, 128]⟩ .f32) (b1 : FVec Ideal ⟨2, ![1, 128]⟩ .f32)
    (P2 Q2 : FVec Ideal ⟨2, ![128, 128]⟩ .f32) (b2 : FVec Ideal ⟨2, ![1, 128]⟩ .f32)
    (W1 : FVec Ideal ⟨2, ![128, 64]⟩ .f32) (c1 : FVec Ideal ⟨2, ![1, 64]⟩ .f32)
    (W2 : FVec Ideal ⟨2, ![64, 3]⟩ .f32) (c2 : FVec Ideal ⟨2, ![1, 3]⟩ .f32) : FVec Ideal ⟨2, ![64, 3]⟩ .f32 :=
  head (pool (lin agg s (hid agg s (hid agg s x P0 Q0 b0) P1 Q1 b1) P2 Q2 b2)) W1 c1 W2 c2

theorem hid_congr {agg : FVec Ideal ⟨2, ![50000, 128]⟩ .f32 → FVec Ideal ⟨2, ![50000, 128]⟩ .f32}
    {A : FVec Ideal ⟨2, ![50000, 128]⟩ .f32} {s s' : FVec Ideal ⟨2, ![50000, 1]⟩ .f32} {x x' : FVec Ideal ⟨2, ![50000, 128]⟩ .f32}
    {P P' Q Q' : FVec Ideal ⟨2, ![128, 128]⟩ .f32} {b b' : FVec Ideal ⟨2, ![1, 128]⟩ .f32}
    (hA : A = agg x') (hs : s = s') (hx : x = x') (hP : P = P') (hQ : Q = Q') (hb : b = b') :
    rect (conv A s x P Q b) = hid agg s' x' P' Q' b' := by
  subst hA hs hx hP hQ hb; rfl

theorem lin_congr {agg : FVec Ideal ⟨2, ![50000, 128]⟩ .f32 → FVec Ideal ⟨2, ![50000, 128]⟩ .f32}
    {A : FVec Ideal ⟨2, ![50000, 128]⟩ .f32} {s s' : FVec Ideal ⟨2, ![50000, 1]⟩ .f32} {x x' : FVec Ideal ⟨2, ![50000, 128]⟩ .f32}
    {P P' Q Q' : FVec Ideal ⟨2, ![128, 128]⟩ .f32} {b b' : FVec Ideal ⟨2, ![1, 128]⟩ .f32}
    (hA : A = agg x') (hs : s = s') (hx : x = x') (hP : P = P') (hQ : Q = Q') (hb : b = b') :
    conv A s x P Q b = lin agg s' x' P' Q' b' := by
  subst hA hs hx hP hQ hb; rfl

theorem head_congr {g g' : FVec Ideal ⟨2, ![64, 128]⟩ .f32} {W1 W1' : FVec Ideal ⟨2, ![128, 64]⟩ .f32}
    {c1 c1' : FVec Ideal ⟨2, ![1, 64]⟩ .f32} {W2 W2' : FVec Ideal ⟨2, ![64, 3]⟩ .f32} {c2 c2' : FVec Ideal ⟨2, ![1, 3]⟩ .f32}
    (hg : g = g') (h1 : W1 = W1') (h2 : c1 = c1') (h3 : W2 = W2') (h4 : c2 = c2') :
    head g W1 c1 W2 c2 = head g' W1' c1' W2' c2' := by
  subst hg h1 h2 h3 h4; rfl

end Cert.Sage

end
-- ==== Proof.KernelValue.lean ====
/-
  The idealized kernel's result as a function of its arguments.

  The run leaves nine successive valuations of the device's buffers: the launch memory, then alternately what a stretch
  of host operations makes of the previous one and what a launch's write-backs make of that. Walking them in order:
  the first stretch computes the edge rows, the reciprocal clipped degrees and the neighbourhood sums of the input;
  launch 0 turns them into the first layer's output; the second stretch re-aggregates that output along the same edges;
  launch 1 gives the second layer's output; and so on to the per-graph means and the head. A buffer that a stretch does
  not write, and that is not an array of the launch in between, is carried along unchanged — that is how the edge rows,
  the reciprocal degrees and the later layers' weights reach the places where they are read.
  The end of the walk: the result buffer holds `Cert.Sage.net` of the sixteen arguments.
-/
import proofs.«131074_j11450382811606_2_alg».proof.Proof.KernelRun
import proofs.«131074_j11450382811606_2_alg».proof.Proof.KernelHost
import proofs.«131074_j11450382811606_2_alg».proof.Proof.Layer0
import proofs.«131074_j11450382811606_2_alg».proof.Proof.Layer1
import proofs.«131074_j11450382811606_2_alg».proof.Proof.Layer2
import proofs.«131074_j11450382811606_2_alg».proof.Proof.HeadKernel
import proofs.«131074_j11450382811606_2_alg».proof.Proof.NetSpec

set_option maxRecDepth 16384

noncomputable section

namespace Cert.KernelIdeal.Fold

open Cert.KernelIdeal Cert.KernelIdeal.Gen Cert.KernelIdeal.Stages Cert.KernelIdeal.HostReads Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The edges' sources, their destinations, the reciprocal clipped degrees, and the latter as a column. -/
abbrev src : (⟨S800000, .i32⟩ : BufTy).Contents (Elt Ideal) := srcOf (F := Ideal) (m ((c : Thread nD τ).loc main_arg1))
abbrev dst : (⟨S800000, .i32⟩ : BufTy).Contents (Elt Ideal) := dstOf (F := Ideal) (m ((c : Thread nD τ).loc main_arg1))
abbrev inv : (⟨S50000, .f32⟩ : BufTy).Contents (Elt Ideal) := invOf (F := Ideal) (dst m c)
abbrev invc : S50000x1.Idx → EReal := shapeCast _ (inv m c) shapeCasts_S50000_S50000x1
/-- The neighbourhood sums along the kernel's edges. -/
abbrev agg : (S50000x128.Idx → EReal) → (S50000x128.Idx → EReal) := fun h => aggOf (F := Ideal) h (src m c) (dst m c)
/-- The per-graph means by the kernel's graph numbers. -/
abbrev pool : (S50000x128.Idx → EReal) → (S64x128.Idx → EReal) := fun h => poolOf (F := Ideal) h (m ((c : Thread nD τ).loc main_arg2))
abbrev bias0 : S1x128.Idx → EReal := shapeCast _ (m ((c : Thread nD τ).loc main_arg4)) shapeCasts_S128_S1x128
abbrev bias1 : S1x128.Idx → EReal := shapeCast _ (m ((c : Thread nD τ).loc main_arg7)) shapeCasts_S128_S1x128
abbrev bias2 : S1x128.Idx → EReal := shapeCast _ (m ((c : Thread nD τ).loc main_arg10)) shapeCasts_S128_S1x128
/-- The three layers' outputs. -/
abbrev h1 : S50000x128.Idx → EReal := hid (agg m c) (invc m c) (m ((c : Thread nD τ).loc main_arg0)) (m ((c : Thread nD τ).loc main_arg3)) (m ((c : Thread nD τ).loc main_arg5)) (bias0 m c)
abbrev h2 : S50000x128.Idx → EReal := hid (agg m c) (invc m c) (h1 m c) (m ((c : Thread nD τ).loc main_arg6)) (m ((c : Thread nD τ).loc main_arg8)) (bias1 m c)
abbrev h3 : S50000x128.Idx → EReal := lin (agg m c) (invc m c) (h2 m c) (m ((c : Thread nD τ).loc main_arg9)) (m ((c : Thread nD τ).loc main_arg11)) (bias2 m c)
/-- The kernel's result. -/
def out : S64x3.Idx → EReal :=
  net (agg m c) (invc m c) (pool m c) (m ((c : Thread nD τ).loc main_arg0)) (m ((c : Thread nD τ).loc main_arg3)) (m ((c : Thread nD τ).loc main_arg5)) (bias0 m c) (m ((c : Thread nD τ).loc main_arg6)) (m ((c : Thread nD τ).loc main_arg8)) (bias1 m c) (m ((c : Thread nD τ).loc main_arg9)) (m ((c : Thread nD τ).loc main_arg11)) (bias2 m c)
    (m ((c : Thread nD τ).loc main_arg12)) (shapeCast _ (m ((c : Thread nD τ).loc main_arg13)) shapeCasts_S64_S1x64) (m ((c : Thread nD τ).loc main_arg14)) (shapeCast _ (m ((c : Thread nD τ).loc main_arg15)) shapeCasts_S3_S1x3)

/-! ## After the first stretch -/

theorem w1_v1 : W1 m ρ c (Proc.devRef .tc main_call0_v1) = src m c := s0_v1 (W0 m ρ c)
theorem w1_v3 : W1 m ρ c (Proc.devRef .tc main_call0_v3) = dst m c := s0_v3 (W0 m ρ c)
theorem w1_v10 : W1 m ρ c (Proc.devRef .tc main_call0_v10) = inv m c := s0_v10 (W0 m ρ c)
theorem w1_v20 : W1 m ρ c (Proc.devRef .tc main_call0_v20) = agg m c (m ((c : Thread nD τ).loc main_arg0)) := s0_v20 (W0 m ρ c)
theorem w1_v21 : W1 m ρ c (Proc.devRef .tc main_call0_v21) = invc m c := s0_v21 (W0 m ρ c)
theorem w1_v22 : W1 m ρ c (Proc.devRef .tc main_call0_v22) = bias0 m c := s0_v22 (W0 m ρ c)
theorem w1_arg0 : W1 m ρ c (Proc.devRef .tc main_arg0) = (m ((c : Thread nD τ).loc main_arg0)) := s0_keep_arg0 (W0 m ρ c)
theorem w1_arg2 : W1 m ρ c (Proc.devRef .tc main_arg2) = (m ((c : Thread nD τ).loc main_arg2)) := s0_keep_arg2 (W0 m ρ c)
theorem w1_arg3 : W1 m ρ c (Proc.devRef .tc main_arg3) = (m ((c : Thread nD τ).loc main_arg3)) := s0_keep_arg3 (W0 m ρ c)
theorem w1_arg5 : W1 m ρ c (Proc.devRef .tc main_arg5) = (m ((c : Thread nD τ).loc main_arg5)) := s0_keep_arg5 (W0 m ρ c)
theorem w1_arg6 : W1 m ρ c (Proc.devRef .tc main_arg6) = (m ((c : Thread nD τ).loc main_arg6)) := s0_keep_arg6 (W0 m ρ c)
theorem w1_arg7 : W1 m ρ c (Proc.devRef .tc main_arg7) = (m ((c : Thread nD τ).loc main_arg7)) := s0_keep_arg7 (W0 m ρ c)
theorem w1_arg8 : W1 m ρ c (Proc.devRef .tc main_arg8) = (m ((c : Thread nD τ).loc main_arg8)) := s0_keep_arg8 (W0 m ρ c)
theorem w1_arg9 : W1 m ρ c (Proc.devRef .tc main_arg9) = (m ((c : Thread nD τ).loc main_arg9)) := s0_keep_arg9 (W0 m ρ c)
theorem w1_arg10 : W1 m ρ c (Proc.devRef .tc main_arg10) = (m ((c : Thread nD τ).loc main_arg10)) := s0_keep_arg10 (W0 m ρ c)
theorem w1_arg11 : W1 m ρ c (Proc.devRef .tc main_arg11) = (m ((c : Thread nD τ).loc main_arg11)) := s0_keep_arg11 (W0 m ρ c)
theorem w1_arg12 : W1 m ρ c (Proc.devRef .tc main_arg12) = (m ((c : Thread nD τ).loc main_arg12)) := s0_keep_arg12 (W0 m ρ c)
theorem w1_arg13 : W1 m ρ c (Proc.devRef .tc main_arg13) = (m ((c : Thread nD τ).loc main_arg13)) := s0_keep_arg13 (W0 m ρ c)
theorem w1_arg14 : W1 m ρ c (Proc.devRef .tc main_arg14) = (m ((c : Thread nD τ).loc main_arg14)) := s0_keep_arg14 (W0 m ρ c)
theorem w1_arg15 : W1 m ρ c (Proc.devRef .tc main_arg15) = (m ((c : Thread nD τ).loc main_arg15)) := s0_keep_arg15 (W0 m ρ c)

/-! ## After launch 0 -/

theorem w2_v23 : W2 m ρ c (Proc.devRef .tc main_call0_v23) = h1 m c :=
  (W2_arr m ρ c 6).trans ((Layer0.final (V1 m ρ) c).trans
    (hid_congr (w1_v20 m ρ c) (w1_v21 m ρ c) (w1_arg0 m ρ c) (w1_arg3 m ρ c) (w1_arg5 m ρ c) (w1_v22 m ρ c)))
theorem w2_v1 : W2 m ρ c (Proc.devRef .tc main_call0_v1) = src m c := (W2_of_ne m ρ c main_call0_v1 (by decide)).trans (w1_v1 m ρ c)
theorem w2_v3 : W2 m ρ c (Proc.devRef .tc main_call0_v3) = dst m c := (W2_of_ne m ρ c main_call0_v3 (by decide)).trans (w1_v3 m ρ c)
theorem w2_v10 : W2 m ρ c (Proc.devRef .tc main_call0_v10) = inv m c := (W2_of_ne m ρ c main_call0_v10 (by decide)).trans (w1_v10 m ρ c)
theorem w2_arg2 : W2 m ρ c (Proc.devRef .tc main_arg2) = (m ((c : Thread nD τ).loc main_arg2)) := (W2_of_ne m ρ c main_arg2 (by decide)).trans (w1_arg2 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_arg13 : W2 m ρ c (Proc.devRef .tc main_arg13) = (m ((c : Thread nD τ).loc main_arg13)) := (W2_of_ne m ρ c main_arg13 (by decide)).trans (w1_arg13 m ρ c)
theorem w2_arg14 : W2 m ρ c (Proc.devRef .tc main_arg14) = (m ((c : Thread nD τ).loc main_arg14)) := (W2_of_ne m ρ c main_arg14 (by decide)).trans (w1_arg14 m ρ c)
theorem w2_arg15 : W2 m ρ c (Proc.devRef .tc main_arg15) = (m ((c : Thread nD τ).loc main_arg15)) := (W2_of_ne m ρ c main_arg15 (by decide)).trans (w1_arg15 m ρ c)

/-! ## After the second stretch -/

theorem w3_v33 : W3 m ρ c (Proc.devRef .tc main_call0_v33) = agg m c (h1 m c) :=
  (s1_v33 (W2 m ρ c)).trans (by rw [w2_v23 m ρ c, w2_v1 m ρ c, w2_v3 m ρ c])
theorem w3_v34 : W3 m ρ c (Proc.devRef .tc main_call0_v34) = invc m c :=
  (s1_v34 (W2 m ρ c)).trans (by rw [w2_v10 m ρ c])
theorem w3_v35 : W3 m ρ c (Proc.devRef .tc main_call0_v35) = bias1 m c :=
  (s1_v35 (W2 m ρ c)).trans (by rw [w2_arg7 m ρ c])
theorem w3_v23 : W3 m ρ c (Proc.devRef .tc main_call0_v23) = h1 m c := (s1_keep_v23 (W2 m ρ c)).trans (w2_v23 m ρ c)
theorem w3_v1 : W3 m ρ c (Proc.devRef .tc main_call0_v1) = src m c := (s1_keep_v1 (W2 m ρ c)).trans (w2_v1 m ρ c)
theorem w3_v3 : W3 m ρ c (Proc.devRef .tc main_call0_v3) = dst m c := (s1_keep_v3 (W2 m ρ c)).trans (w2_v3 m ρ c)
theorem w3_v10 : W3 m ρ c (Proc.devRef .tc main_call0_v10) = inv m c := (s1_keep_v10 (W2 m ρ c)).trans (w2_v10 m ρ c)
theorem w3_arg2 : W3 m ρ c (Proc.devRef .tc main_arg2) = (m ((c : Thread nD τ).loc main_arg2)) := (s1_keep_arg2 (W2 m ρ c)).trans (w2_arg2 m ρ c)
theorem w3_arg6 : W3 m ρ c (Proc.devRef .tc main_arg6) = (m ((c : Thread nD τ).loc main_arg6)) := (s1_keep_arg6 (W2 m ρ c)).trans (w2_arg6 m ρ c)
theorem w3_arg8 : W3 m ρ c (Proc.devRef .tc main_arg8) = (m ((c : Thread nD τ).loc main_arg8)) := (s1_keep_arg8 (W2 m ρ c)).trans (w2_arg8 m ρ c)
theorem w3_arg9 : W3 m ρ c (Proc.devRef .tc main_arg9) = (m ((c : Thread nD τ).loc main_arg9)) := (s1_keep_arg9 (W2 m ρ c)).trans (w2_arg9 m ρ c)
theorem w3_arg10 : W3 m ρ c (Proc.devRef .tc main_arg10) = (m ((c : Thread nD τ).loc main_arg10)) := (s1_keep_arg10 (W2 m ρ c)).trans (w2_arg10 m ρ c)
theorem w3_arg11 : W3 m ρ c (Proc.devRef .tc main_arg11) = (m ((c : Thread nD τ).loc main_arg11)) := (s1_keep_arg11 (W2 m ρ c)).trans (w2_arg11 m ρ c)
theorem w3_arg12 : W3 m ρ c (Proc.devRef .tc main_arg12) = (m ((c : Thread nD τ).loc main_arg12)) := (s1_keep_arg12 (W2 m ρ c)).trans (w2_arg12 m ρ c)
theorem w3_arg13 : W3 m ρ c (Proc.devRef .tc main_arg13) = (m ((c : Thread nD τ).loc main_arg13)) := (s1_keep_arg13 (W2 m ρ c)).trans (w2_arg13 m ρ c)
theorem w3_arg14 : W3 m ρ c (Proc.devRef .tc main_arg14) = (m ((c : Thread nD τ).loc main_arg14)) := (s1_keep_arg14 (W2 m ρ c)).trans (w2_arg14 m ρ c)
theorem w3_arg15 : W3 m ρ c (Proc.devRef .tc main_arg15) = (m ((c : Thread nD τ).loc main_arg15)) := (s1_keep_arg15 (W2 m ρ c)).trans (w2_arg15 m ρ c)

/-! ## After launch 1 -/

theorem w4_v36 : W4 m ρ c (Proc.devRef .tc main_call0_v36) = h2 m c :=
  (W4_arr m ρ c 6).trans ((Layer1.final (V3 m ρ) c).trans
    (hid_congr (w3_v33 m ρ c) (w3_v34 m ρ c) (w3_v23 m ρ c) (w3_arg6 m ρ c) (w3_arg8 m ρ c) (w3_v35 m ρ c)))
theorem w4_v1 : W4 m ρ c (Proc.devRef .tc main_call0_v1) = src m c := (W4_of_ne m ρ c main_call0_v1 (by decide)).trans (w3_v1 m ρ c)
theorem w4_v3 : W4 m ρ c (Proc.devRef .tc main_call0_v3) = dst m c := (W4_of_ne m ρ c main_call0_v3 (by decide)).trans (w3_v3 m ρ c)
theorem w4_v10 : W4 m ρ c (Proc.devRef .tc main_call0_v10) = inv m c := (W4_of_ne m ρ c main_call0_v10 (by decide)).trans (w3_v10 m ρ c)
theorem w4_arg2 : W4 m ρ c (Proc.devRef .tc main_arg2) = (m ((c : Thread nD τ).loc main_arg2)) := (W4_of_ne m ρ c main_arg2 (by decide)).trans (w3_arg2 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)
theorem w4_arg15 : W4 m ρ c (Proc.devRef .tc main_arg15) = (m ((c : Thread nD τ).loc main_arg15)) := (W4_of_ne m ρ c main_arg15 (by decide)).trans (w3_arg15 m ρ c)

/-! ## After the third stretch -/

theorem w5_v46 : W5 m ρ c (Proc.devRef .tc main_call0_v46) = agg m c (h2 m c) :=
  (s2_v46 (W4 m ρ c)).trans (by rw [w4_v36 m ρ c, w4_v1 m ρ c, w4_v3 m ρ c])
theorem w5_v47 : W5 m ρ c (Proc.devRef .tc main_call0_v47) = invc m c :=
  (s2_v47 (W4 m ρ c)).trans (by rw [w4_v10 m ρ c])
theorem w5_v48 : W5 m ρ c (Proc.devRef .tc main_call0_v48) = bias2 m c :=
  (s2_v48 (W4 m ρ c)).trans (by rw [w4_arg10 m ρ c])
theorem w5_v36 : W5 m ρ c (Proc.devRef .tc main_call0_v36) = h2 m c := (s2_keep_v36 (W4 m ρ c)).trans (w4_v36 m ρ c)
theorem w5_arg2 : W5 m ρ c (Proc.devRef .tc main_arg2) = (m ((c : Thread nD τ).loc main_arg2)) := (s2_keep_arg2 (W4 m ρ c)).trans (w4_arg2 m ρ c)
theorem w5_arg9 : W5 m ρ c (Proc.devRef .tc main_arg9) = (m ((c : Thread nD τ).loc main_arg9)) := (s2_keep_arg9 (W4 m ρ c)).trans (w4_arg9 m ρ c)
theorem w5_arg11 : W5 m ρ c (Proc.devRef .tc main_arg11) = (m ((c : Thread nD τ).loc main_arg11)) := (s2_keep_arg11 (W4 m ρ c)).trans (w4_arg11 m ρ c)
theorem w5_arg12 : W5 m ρ c (Proc.devRef .tc main_arg12) = (m ((c : Thread nD τ).loc main_arg12)) := (s2_keep_arg12 (W4 m ρ c)).trans (w4_arg12 m ρ c)
theorem w5_arg13 : W5 m ρ c (Proc.devRef .tc main_arg13) = (m ((c : Thread nD τ).loc main_arg13)) := (s2_keep_arg13 (W4 m ρ c)).trans (w4_arg13 m ρ c)
theorem w5_arg14 : W5 m ρ c (Proc.devRef .tc main_arg14) = (m ((c : Thread nD τ).loc main_arg14)) := (s2_keep_arg14 (W4 m ρ c)).trans (w4_arg14 m ρ c)
theorem w5_arg15 : W5 m ρ c (Proc.devRef .tc main_arg15) = (m ((c : Thread nD τ).loc main_arg15)) := (s2_keep_arg15 (W4 m ρ c)).trans (w4_arg15 m ρ c)

/-! ## After launch 2 -/

theorem w6_v49 : W6 m ρ c (Proc.devRef .tc main_call0_v49) = h3 m c :=
  (W6_arr m ρ c 6).trans ((Layer2.final (V5 m ρ) c).trans
    (lin_congr (w5_v46 m ρ c) (w5_v47 m ρ c) (w5_v36 m ρ c) (w5_arg9 m ρ c) (w5_arg11 m ρ c) (w5_v48 m ρ c)))
theorem w6_arg2 : W6 m ρ c (Proc.devRef .tc main_arg2) = (m ((c : Thread nD τ).loc main_arg2)) := (W6_of_ne m ρ c main_arg2 (by decide)).trans (w5_arg2 m ρ c)
theorem w6_arg12 : W6 m ρ c (Proc.devRef .tc main_arg12) = (m ((c : Thread nD τ).loc main_arg12)) := (W6_of_ne m ρ c main_arg12 (by decide)).trans (w5_arg12 m ρ c)
theorem w6_arg13 : W6 m ρ c (Proc.devRef .tc main_arg13) = (m ((c : Thread nD τ).loc main_arg13)) := (W6_of_ne m ρ c main_arg13 (by decide)).trans (w5_arg13 m ρ c)
theorem w6_arg14 : W6 m ρ c (Proc.devRef .tc main_arg14) = (m ((c : Thread nD τ).loc main_arg14)) := (W6_of_ne m ρ c main_arg14 (by decide)).trans (w5_arg14 m ρ c)
theorem w6_arg15 : W6 m ρ c (Proc.devRef .tc main_arg15) = (m ((c : Thread nD τ).loc main_arg15)) := (W6_of_ne m ρ c main_arg15 (by decide)).trans (w5_arg15 m ρ c)

/-! ## After the last stretch -/

theorem w7_v60 : W7 m ρ c (Proc.devRef .tc main_call0_v60) = pool m c (h3 m c) :=
  (s3_v60 (W6 m ρ c)).trans (by rw [w6_v49 m ρ c, w6_arg2 m ρ c])
theorem w7_v61 : W7 m ρ c (Proc.devRef .tc main_call0_v61) = shapeCast _ (m ((c : Thread nD τ).loc main_arg13)) shapeCasts_S64_S1x64 :=
  (s3_v61 (W6 m ρ c)).trans (by rw [w6_arg13 m ρ c])
theorem w7_v62 : W7 m ρ c (Proc.devRef .tc main_call0_v62) = shapeCast _ (m ((c : Thread nD τ).loc main_arg15)) shapeCasts_S3_S1x3 :=
  (s3_v62 (W6 m ρ c)).trans (by rw [w6_arg15 m ρ c])
theorem w7_arg12 : W7 m ρ c (Proc.devRef .tc main_arg12) = (m ((c : Thread nD τ).loc main_arg12)) := (s3_keep_arg12 (W6 m ρ c)).trans (w6_arg12 m ρ c)
theorem w7_arg14 : W7 m ρ c (Proc.devRef .tc main_arg14) = (m ((c : Thread nD τ).loc main_arg14)) := (s3_keep_arg14 (W6 m ρ c)).trans (w6_arg14 m ρ c)

/-! ## After launch 3: the result -/

set_option maxRecDepth 65536 in
theorem w8_v0 : W8 m ρ c (Proc.devRef .tc main_v0) = out m c := by
  refine (W8_arr m ρ c 5).trans ?_
  refine (Head.final (V7 m ρ) c).trans ?_
  unfold Head.G out net
  exact head_congr (w7_v60 m ρ c) (w7_arg12 m ρ c) (w7_v61 m ρ c) (w7_arg14 m ρ c) (w7_v62 m ρ c)

/-- The idealized kernel's run: the result is the network of the arguments, and the arguments end as launched. -/
theorem run : θ_run defs (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w8_v0 m ρ c), (h c).2⟩) (Cert.KernelIdeal.ValueRun.run m ρ)

end Cert.KernelIdeal.Fold

end
-- ==== Proof.ReferenceStages.lean ====
/-
  The host operations around the layers, as functions of whole arrays (the program's own operations, named).

    srcOf ei, dstOf ei   the two rows of the edge list: the edges' source and destination node numbers;
    wrapOf src           a negative source number counted from the end (src + 50000 where src < 0);
    aggOf h src dst      for every node the sum of the rows of h at the sources of the edges that arrive at it: the rows of h
                         gathered at the (wrapped) sources, then scatter-added at the destinations into zeros;
    degOf dst            for every node the number of edges that arrive at it: ones scatter-added at the destinations;
    clipOf dst           max (1, degOf dst), entry by entry;
    invOf dst            1 / clipOf dst, entry by entry;
    poolOf h batch       for every graph the mean of the rows of h over its nodes: the rows scatter-added at the nodes' graph
                         numbers, divided by max (1, the number of nodes of the graph).
-/
import proofs.«131074_j11450382811606_2_alg».proof.Proof.Gen.ReferenceIdeal.Read

noncomputable section

namespace Cert.ReferenceIdeal.Stages

open Cert.ReferenceIdeal Cert.ReferenceIdeal.Gen Idealize.ShloMosaic Idealize.ShloMosaic.TcCoe

variable {F : FTy → Type} [FloatOps F]

/-- The edges' source node numbers: row 0 of the edge list. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination node numbers: row 1 of the edge list. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- A negative node number counted from the end. -/
def wrapOf (src : (⟨S800000, .i32⟩ : BufTy).Contents (Elt F)) : (⟨S800000, .i32⟩ : BufTy).Contents (Elt F) :=
  select (cmpi .slt src (broadcastInDim S800000 ![] bcast_S_S800000 (constantI S_ 32 0#32)))
    (addi src (broadcastInDim S800000 ![] bcast_S_S800000 (constantI S_ 32 50000#32))) src

/-- For every node, the sum of the rows of `h` at the sources of the edges that arrive at it. -/
def aggOf (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0 (wrapOf src)))

/-- For every node, the number of edges that arrive at it. -/
def degOf (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The degree clipped below at one. -/
def clipOf (dst : (⟨S800000, .i32⟩ : BufTy).Contents (Elt F)) : (⟨S50000, .f32⟩ : BufTy).Contents (Elt F) :=
  maximumf (broadcastInDim S50000 ![] bcast_S_S50000 (id (constant S_ .f32 0x3F800000#32))) (degOf dst)

/-- The reciprocal of the clipped degree. -/
def invOf (dst : (⟨S800000, .i32⟩ : BufTy).Contents (Elt F)) : (⟨S50000, .f32⟩ : BufTy).Contents (Elt F) :=
  Host.divf (broadcastInDim S50000 ![] bcast_S_S50000 (constant S_ .f32 0x3F800000#32)) (clipOf dst)

/-- For every graph, the mean of the rows of `h` over its nodes (the divisor clipped below at one). -/
def poolOf (h : (⟨S50000x128, .f32⟩ : BufTy).Contents (Elt F)) (batch : (⟨S50000, .i32⟩ : BufTy).Contents (Elt F)) :
    (⟨S64x128, .f32⟩ : BufTy).Contents (Elt F) :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf (broadcastInDim S64 ![] bcast_S_S64 (id (constant S_ .f32 0x3F800000#32)))
        (Host.scatterAdd scatter_S64_S50000x1_S50000_n_0_0_1
          (broadcastInDim S64 ![] bcast_S_S64 (constant S_ .f32 0x00000000#32))
          (broadcastInDim S50000x1 ![0] bcast_S50000_S50000x1_0 batch)
          (broadcastInDim S50000 ![] bcast_S_S50000 (constant S_ .f32 0x3F800000#32))))))

end Cert.ReferenceIdeal.Stages

end
-- ==== Proof.LibSageHost.lean ====
/-
  The reference's spelling of a layer and of the head's logits against `Cert.Sage.conv` and the dense steps, on the
  extended reals (general in the extents).

  Means. The reference divides every row of the neighbourhood sums A by that row's clipped degree max (1, d (r)), laid
  across the row through a column; the kernel multiplies the row by the reciprocal 1 / max (1, d (r)), computed once and
  kept as a column. On the extended reals x / y = x · y⁻¹ for y ≠ 0, and then 1 / y = y⁻¹, so x · (1 / y) = x / y for
  EVERY extended real x; and max (1, d) ≥ 1 is not 0 whatever d is. So the two arrays of means are equal entry by entry
  with no condition on A or d.

  Layer. With the means so identified, the reference's (M·P + bias rows) + X·Q is `conv`'s (M·P + X·Q) + bias: a
  three-term sum reordered (commutativity and associativity of + on the extended reals, which hold at the infinities).

  Logits. g·W1 plus the bias rows, maximum with zero, times W2, plus the bias rows: the dense steps in the host's forms.
  (It imports this directory's copy of LibSoftmaxHead.lean, and through it LibSageLayer.lean, LibKeepdims.lean and the five files under them.)
-/
import proofs.«131074_j11450382811606_2_alg».proof.Proof.LibSoftmaxHead

noncomputable section

open scoped BigOperators

namespace Cert.Sage

open Idealize.ShloMosaic Idealize.ShloMosaic.ValueIdx Cert.Dense Cert.Layers Cert.Bridge Cert.Lib.Keepdims Cert.Lib.MatDot

variable {M k n : ℕ}

/-- The maximum of one and anything is not zero. -/
theorem max_one_ne_zero' (d : EReal) : max (1 : EReal) d ≠ 0 := by
  intro h
  have h0 : (0 : EReal) < 1 := by exact_mod_cast (zero_lt_one : (0 : ℝ) < 1)
  have h1 : (1 : EReal) ≤ max 1 d := le_max_left _ _
  rw [h] at h1
  exact absurd h1 (not_le.mpr h0)

/-- Dividing every row of `A` by that row's clipped degree is multiplying it by the reciprocal of the clipped degree. -/
theorem div_rows_eq (A : FVec Ideal ⟨2, ![M, k]⟩ .f32) (d : FVec Ideal ⟨1, ![M]⟩ .f32)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, k]⟩ ![0, 1]) (hc : (⟨1, ![M]⟩ : Shape).ShapeCasts ⟨2, ![M, 1]⟩) :
    Host.divf A (broadcastInDim ⟨2, ![M, k]⟩ ![0, 1] h2 (broadcastInDim ⟨2, ![M, 1]⟩ ![0] h1
      (maximumf (broadcastInDim ⟨1, ![M]⟩ ![] h0 (id (constant (F := Ideal) ⟨0, ![]⟩ .f32 0x3F800000#32))) d)))
    = scaleRows A (shapeCast ⟨2, ![M, 1]⟩ (Host.divf (broadcastInDim ⟨1, ![M]⟩ ![] h0 (constant (F := Ideal) ⟨0, ![]⟩ .f32 0x3F800000#32))
        (maximumf (broadcastInDim ⟨1, ![M]⟩ ![] h0 (id (constant (F := Ideal) ⟨0, ![]⟩ .f32 0x3F800000#32))) d)) hc) := by
  funext i
  obtain ⟨r, c, rfl⟩ : ∃ (r : Fin M) (c : Fin k), i = ix2 r c := ⟨i 0, i 1, eq_ix2 i⟩
  rw [scaleRows_apply, shapeCast_a_a1_apply]
  show Ideal.div (A (ix2 r c)) (broadcastInDim ⟨2, ![M, k]⟩ ![0, 1] h2 (broadcastInDim ⟨2, ![M, 1]⟩ ![0] h1
      (maximumf (broadcastInDim ⟨1, ![M]⟩ ![] h0 (id (constant (F := Ideal) ⟨0, ![]⟩ .f32 0x3F800000#32))) d)) (ix2 r c))
    = A (ix2 r c) * Ideal.div (broadcastInDim ⟨1, ![M]⟩ ![] h0 (constant (F := Ideal) ⟨0, ![]⟩ .f32 0x3F800000#32) (ix1 r))
        (max (broadcastInDim ⟨1, ![M]⟩ ![] h0 (id (constant (F := Ideal) ⟨0, ![]⟩ .f32 0x3F800000#32)) (ix1 r)) (d (ix1 r)))
  rw [broadcastInDim_col_apply, broadcastInDim_vec_col_apply, maximumf_apply, broadcastInDim_scalar_apply, broadcastInDim_scalar_apply]
  show Ideal.div (A (ix2 r c)) (max (Ideal.ofBits .f32 0x3F800000#32) (d (ix1 r)))
    = A (ix2 r c) * Ideal.div (Ideal.ofBits .f32 0x3F800000#32) (max (Ideal.ofBits .f32 0x3F800000#32) (d (ix1 r)))
  rw [ofBits_one]
  exact (mul_one_div _ _ (max_one_ne_zero' _)).symm

/-- The reference's layer with its rectifier: the means by division, (M·P + bias rows) + X·Q, maximum with zero. -/
theorem hostConvRelu_eq (w : DotDims.WF ⟨2, ![M, k]⟩ ⟨2, ![k, n]⟩ ⟨2, ![M, n]⟩ [1] [0] [0] [1] [] [])
    (prec : Option ContractPrecision) (hb1 : (⟨1, ![n]⟩ : Shape).BroadcastsInDim ⟨2, ![1, n]⟩ ![1])
    (hb2 : (⟨2, ![1, n]⟩ : Shape).BroadcastsInDim ⟨2, ![M, n]⟩ ![0, 1]) (hcb : (⟨1, ![n]⟩ : Shape).ShapeCasts ⟨2, ![1, n]⟩)
    (hz : (⟨0, ![]⟩ : Shape).BroadcastsInDim ⟨2, ![M, n]⟩ ![])
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, k]⟩ ![0, 1]) (hc : (⟨1, ![M]⟩ : Shape).ShapeCasts ⟨2, ![M, 1]⟩)
    (A X : FVec Ideal ⟨2, ![M, k]⟩ .f32) (P Q : FVec Ideal ⟨2, ![k, n]⟩ .f32) (br : FVec Ideal ⟨1, ![n]⟩ .f32)
    (d : FVec Ideal ⟨1, ![M]⟩ .f32) :
    maximumf (addf (addf (Host.dotGeneral (⟨[1], [0], [0], [1], [], [], w⟩ : DotDims ⟨2, ![M, k]⟩ ⟨2, ![k, n]⟩ ⟨2, ![M, n]⟩) prec
        (Host.divf A (broadcastInDim ⟨2, ![M, k]⟩ ![0, 1] h2 (broadcastInDim ⟨2, ![M, 1]⟩ ![0] h1
          (maximumf (broadcastInDim ⟨1, ![M]⟩ ![] h0 (id (constant (F := Ideal) ⟨0, ![]⟩ .f32 0x3F800000#32))) d)))) P)
        (broadcastInDim ⟨2, ![M, n]⟩ ![0, 1] hb2 (broadcastInDim ⟨2, ![1, n]⟩ ![1] hb1 br)))
      (Host.dotGeneral (⟨[1], [0], [0], [1], [], [], w⟩ : DotDims ⟨2, ![M, k]⟩ ⟨2, ![k, n]⟩ ⟨2, ![M, n]⟩) prec X Q))
      (broadcastInDim ⟨2, ![M, n]⟩ ![] hz (constant (F := Ideal) ⟨0, ![]⟩ .f32 0x00000000#32))
    = rect (conv A (shapeCast ⟨2, ![M, 1]⟩ (Host.divf (broadcastInDim ⟨1, ![M]⟩ ![] h0 (constant (F := Ideal) ⟨0, ![]⟩ .f32 0x3F800000#32))
        (maximumf (broadcastInDim ⟨1, ![M]⟩ ![] h0 (id (constant (F := Ideal) ⟨0, ![]⟩ .f32 0x3F800000#32))) d)) hc) X P Q
        (shapeCast ⟨2, ![1, n]⟩ br hcb)) := by
  rw [div_rows_eq A d h0 h1 h2 hc, hostLayer_eq w prec hb1 hb2 hcb]
  funext i
  rw [maximumf_apply, broadcastInDim_scalar_apply, rect_apply]
  rfl

/-- The reference's last layer, without a rectifier. -/
theorem hostConv_eq (w : DotDims.WF ⟨2, ![M, k]⟩ ⟨2, ![k, n]⟩ ⟨2, ![M, n]⟩ [1] [0] [0] [1] [] [])
    (prec : Option ContractPrecision) (hb1 : (⟨1, ![n]⟩ : Shape).BroadcastsInDim ⟨2, ![1, n]⟩ ![1])
    (hb2 : (⟨2, ![1, n]⟩ : Shape).BroadcastsInDim ⟨2, ![M, n]⟩ ![0, 1]) (hcb : (⟨1, ![n]⟩ : Shape).ShapeCasts ⟨2, ![1, n]⟩)
    (h0 : (⟨0, ![]⟩ : Shape).BroadcastsInDim ⟨1, ![M]⟩ ![]) (h1 : (⟨1, ![M]⟩ : Shape).BroadcastsInDim ⟨2, ![M, 1]⟩ ![0])
    (h2 : (⟨2, ![M, 1]⟩ : Shape).BroadcastsInDim ⟨2, ![M, k]⟩ ![0, 1]) (hc : (⟨1, ![M]⟩ : Shape).ShapeCasts ⟨2, ![M, 1]⟩)
    (A X : FVec Ideal ⟨2, ![M, k]⟩ .f32) (P Q : FVec Ideal ⟨2, ![k, n]⟩ .f32) (br : FVec Ideal ⟨1, ![n]⟩ .f32)
    (d : FVec Ideal ⟨1, ![M]⟩ .f32) :
    addf (addf (Host.dotGeneral (⟨[1], [0], [0], [1], [], [], w⟩ : DotDims ⟨2, ![M, k]⟩ ⟨2, ![k, n]⟩ ⟨2, ![M, n]⟩) prec
        (Host.divf A (broadcastInDim ⟨2, ![M, k]⟩ ![0, 1] h2 (broadcastInDim ⟨2, ![M, 1]⟩ ![0] h1
          (maximumf (broadcastInDim ⟨1, ![M]⟩ ![] h0 (id (constant (F := Ideal) ⟨0, ![]⟩ .f32 0x3F800000#32))) d)))) P)
        (broadcastInDim ⟨2, ![M, n]⟩ ![0, 1] hb2 (broadcastInDim ⟨2, ![1, n]⟩ ![1] hb1 br)))
      (Host.dotGeneral (⟨[1], [0], [0], [1], [], [], w⟩ : DotDims ⟨2, ![M, k]⟩ ⟨2, ![k, n]⟩ ⟨2, ![M, n]⟩) prec X Q)
    = conv A (shapeCast ⟨2, ![M, 1]⟩ (Host.divf (broadcastInDim ⟨1, ![M]⟩ ![] h0 (constant (F := Ideal) ⟨0, ![]⟩ .f32 0x3F800000#32))
        (maximumf (broadcastInDim ⟨1, ![M]⟩ ![] h0 (id (constant (F := Ideal) ⟨0, ![]⟩ .f32 0x3F800000#32))) d)) hc) X P Q
        (shapeCast ⟨2, ![1, n]⟩ br hcb) := by
  rw [div_rows_eq A d h0 h1 h2 hc, hostLayer_eq w prec hb1 hb2 hcb]
  rfl

/-- The head's logits in the host's forms: two dense steps, the first rectified. -/
theorem hostLogits_eq {G h o : ℕ} (w1 : DotDims.WF ⟨2, ![G, k]⟩ ⟨2, ![k, h]⟩ ⟨2, ![G, h]⟩ [1] [0] [0] [1] [] [])
    (w2 : DotDims.WF ⟨2, ![G, h]⟩ ⟨2, ![h, o]⟩ ⟨2, ![G, o]⟩ [1] [0] [0] [1] [] []) (prec : Option ContractPrecision)
    (hb1 : (⟨1, ![h]⟩ : Shape).BroadcastsInDim ⟨2, ![1, h]⟩ ![1]) (hb1' : (⟨2, ![1, h]⟩ : Shape).BroadcastsInDim ⟨2, ![G, h]⟩ ![0, 1])
    (hc1 : (⟨1, ![h]⟩ : Shape).ShapeCasts ⟨2, ![1, h]⟩) (hz1 : (⟨0, ![]⟩ : Shape).BroadcastsInDim ⟨2, ![G, h]⟩ ![])
    (hb2 : (⟨1, ![o]⟩ : Shape).BroadcastsInDim ⟨2, ![1, o]⟩ ![1]) (hb2' : (⟨2, ![1, o]⟩ : Shape).BroadcastsInDim ⟨2, ![G, o]⟩ ![0, 1])
    (hc2 : (⟨1, ![o]⟩ : Shape).ShapeCasts ⟨2, ![1, o]⟩)
    (g : FVec Ideal ⟨2, ![G, k]⟩ .f32) (W1 : FVec Ideal ⟨2, ![k, h]⟩ .f32) (b1 : FVec Ideal ⟨1, ![h]⟩ .f32)
    (W2 : FVec Ideal ⟨2, ![h, o]⟩ .f32) (b2 : FVec Ideal ⟨1, ![o]⟩ .f32) :
    addf (Host.dotGeneral (⟨[1], [0], [0], [1], [], [], w2⟩ : DotDims ⟨2, ![G, h]⟩ ⟨2, ![h, o]⟩ ⟨2, ![G, o]⟩) prec
        (maximumf (addf (Host.dotGeneral (⟨[1], [0], [0], [1], [], [], w1⟩ : DotDims ⟨2, ![G, k]⟩ ⟨2, ![k, h]⟩ ⟨2, ![G, h]⟩) prec g W1)
            (broadcastInDim ⟨2, ![G, h]⟩ ![0, 1] hb1' (broadcastInDim ⟨2, ![1, h]⟩ ![1] hb1 b1)))
          (broadcastInDim ⟨2, ![G, h]⟩ ![] hz1 (constant (F := Ideal) ⟨0, ![]⟩ .f32 0x00000000#32))) W2)
      (broadcastInDim ⟨2, ![G, o]⟩ ![0, 1] hb2' (broadcastInDim ⟨2, ![1, o]⟩ ![1] hb2 b2))
    = addRow (matProd (addRowRelu (matProd g W1) (shapeCast ⟨2, ![1, h]⟩ b1 hc1)) W2) (shapeCast ⟨2, ![1, o]⟩ b2 hc2) := by
  rw [dotGeneral_eq w1 prec g W1, relu_add_rows_eq hb1 hb1' hc1 hz1, dotGeneral_eq w2 prec, add_rows_eq hb2 hb2' hc2]

end Cert.Sage

end
-- ==== Proof.ReferenceValue.lean ====
/-
  The idealized reference's result as the same function of its arguments.

  Stage by stage through the reference's own operations: each layer is the host's spelling of `Cert.Sage.conv` (means by
  division, a three-term sum in the other order) of the previous layer's output, rectified for the first two; the
  per-graph means are the pooling stage; the last seven operations are the host's softmax of the head's logits. So the
  result is `Cert.Sage.net` of the sixteen arguments, with the graph stages the reference's own.
-/
import proofs.«131074_j11450382811606_2_alg».proof.Proof.Gen.ReferenceIdeal.Read
import proofs.«131074_j11450382811606_2_alg».proof.Proof.ReferenceStages
import proofs.«131074_j11450382811606_2_alg».proof.Proof.LibSageHost
import proofs.«131074_j11450382811606_2_alg».proof.Proof.NetSpec

set_option maxRecDepth 16384

noncomputable section

namespace Cert.ReferenceIdeal.RefValue

open Cert.ReferenceIdeal Cert.ReferenceIdeal.Gen Cert.ReferenceIdeal.Read Cert.ReferenceIdeal.Stages Cert.Sage
open Idealize.ShloMosaic Idealize.ShloMosaic.TcCoe Idealize.ShloMosaic.ValueIdx Idealize.SL.Sem

theorem cast_col : (⟨1, ![50000]⟩ : Shape).ShapeCasts ⟨2, ![50000, 1]⟩ := by decide
theorem cast_row128 : (⟨1, ![128]⟩ : Shape).ShapeCasts ⟨2, ![1, 128]⟩ := by decide
theorem cast_row64 : (⟨1, ![64]⟩ : Shape).ShapeCasts ⟨2, ![1, 64]⟩ := by decide
theorem cast_row3 : (⟨1, ![3]⟩ : Shape).ShapeCasts ⟨2, ![1, 3]⟩ := by decide
theorem reduces_rows : (⟨2, ![64, 3]⟩ : Shape).Reduces [1] ⟨1, ![64]⟩ := by decide

variable (x0 : (⟨S50000x128, .f32⟩ : BufTy).Contents (Elt Ideal)) (x1 : (⟨S2x800000, .i32⟩ : BufTy).Contents (Elt Ideal)) (x2 : (⟨S50000, .i32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal)) (x11 : (⟨S128x128, .f32⟩ : BufTy).Contents (Elt Ideal))
  (x12 : (⟨S128x64, .f32⟩ : BufTy).Contents (Elt Ideal)) (x13 : (⟨S64, .f32⟩ : BufTy).Contents (Elt Ideal)) (x14 : (⟨S64x3, .f32⟩ : BufTy).Contents (Elt Ideal)) (x15 : (⟨S3, .f32⟩ : BufTy).Contents (Elt Ideal))

/-- The neighbourhood sums along the reference's edges, the reciprocal clipped degrees as a column, the per-graph means. -/
abbrev agg : (S50000x128.Idx → EReal) → (S50000x128.Idx → EReal) := fun h => aggOf (F := Ideal) h (srcOf x1) (dstOf x1)
abbrev invc : S50000x1.Idx → EReal := shapeCast ⟨2, ![50000, 1]⟩ (invOf (F := Ideal) (dstOf x1)) cast_col
abbrev pool : (S50000x128.Idx → EReal) → (S64x128.Idx → EReal) := fun h => poolOf (F := Ideal) h x2

/-- The first layer. -/
theorem layer1 : val_main_v28 (F := Ideal) x0 x1 x3 x4 x5
    = hid (agg x1) (invc x1) x0 x3 x5 (shapeCast ⟨2, ![1, 128]⟩ x4 cast_row128) :=
  hostConvRelu_eq (M := 50000) (k := 128) (n := 128) dot_S50000x128_S128x128_S50000x128_1_0_0_1_n_n.wf none bcast_S128_S1x128_1
    bcast_S1x128_S50000x128_0_1 cast_row128 bcast_S_S50000x128 bcast_S_S50000 bcast_S50000_S50000x1_0 bcast_S50000x1_S50000x128_0_1
    cast_col (aggOf (F := Ideal) x0 (srcOf x1) (dstOf x1)) x0 x3 x5 x4 (degOf (F := Ideal) (dstOf x1))

/-- The second layer, of the first layer's output. -/
theorem layer2 : val_main_v53 (F := Ideal) x0 x1 x3 x4 x5 x6 x7 x8
    = hid (agg x1) (invc x1) (val_main_v28 (F := Ideal) x0 x1 x3 x4 x5) x6 x8 (shapeCast ⟨2, ![1, 128]⟩ x7 cast_row128) :=
  hostConvRelu_eq (M := 50000) (k := 128) (n := 128) dot_S50000x128_S128x128_S50000x128_1_0_0_1_n_n.wf none bcast_S128_S1x128_1
    bcast_S1x128_S50000x128_0_1 cast_row128 bcast_S_S50000x128 bcast_S_S50000 bcast_S50000_S50000x1_0 bcast_S50000x1_S50000x128_0_1
    cast_col (aggOf (F := Ideal) (val_main_v28 (F := Ideal) x0 x1 x3 x4 x5) (srcOf x1) (dstOf x1)) (val_main_v28 (F := Ideal) x0 x1 x3 x4 x5) x6 x8 x7
    (degOf (F := Ideal) (dstOf x1))

/-- The third layer, of the second layer's output, not rectified. -/
theorem layer3 : val_main_v77 (F := Ideal) x0 x1 x3 x4 x5 x6 x7 x8 x9 x10 x11
    = lin (agg x1) (invc x1) (val_main_v53 (F := Ideal) x0 x1 x3 x4 x5 x6 x7 x8) x9 x11 (shapeCast ⟨2, ![1, 128]⟩ x10 cast_row128) :=
  hostConv_eq (M := 50000) (k := 128) (n := 128) dot_S50000x128_S128x128_S50000x128_1_0_0_1_n_n.wf none bcast_S128_S1x128_1
    bcast_S1x128_S50000x128_0_1 cast_row128 bcast_S_S50000 bcast_S50000_S50000x1_0 bcast_S50000x1_S50000x128_0_1
    cast_col (aggOf (F := Ideal) (val_main_v53 (F := Ideal) x0 x1 x3 x4 x5 x6 x7 x8) (srcOf x1) (dstOf x1)) (val_main_v53 (F := Ideal) x0 x1 x3 x4 x5 x6 x7 x8) x9 x11 x10
    (degOf (F := Ideal) (dstOf x1))

/-- The per-graph means of the third layer's output. -/
theorem pooled : val_main_v88 (F := Ideal) x0 x1 x2 x3 x4 x5 x6 x7 x8 x9 x10 x11 = pool x2 (val_main_v77 (F := Ideal) x0 x1 x3 x4 x5 x6 x7 x8 x9 x10 x11) := rfl

/-- The head's logits. -/
theorem logits : val_main_v97 (F := Ideal) x0 x1 x2 x3 x4 x5 x6 x7 x8 x9 x10 x11 x12 x13 x14 x15
    = Cert.Dense.addRow (Cert.Dense.matProd (Cert.Dense.addRowRelu (Cert.Dense.matProd (val_main_v88 (F := Ideal) x0 x1 x2 x3 x4 x5 x6 x7 x8 x9 x10 x11) x12)
        (shapeCast ⟨2, ![1, 64]⟩ x13 cast_row64)) x14) (shapeCast ⟨2, ![1, 3]⟩ x15 cast_row3) :=
  hostLogits_eq (k := 128) (G := 64) (h := 64) (o := 3) dot_S64x128_S128x64_S64x64_1_0_0_1_n_n.wf dot_S64x64_S64x3_S64x3_1_0_0_1_n_n.wf none
    bcast_S64_S1x64_1 bcast_S1x64_S64x64_0_1 cast_row64 bcast_S_S64x64 bcast_S3_S1x3_1 bcast_S1x3_S64x3_0_1 cast_row3
    (val_main_v88 (F := Ideal) x0 x1 x2 x3 x4 x5 x6 x7 x8 x9 x10 x11) x12 x13 x14 x15

/-- The last seven operations are the softmax of the logits. -/
theorem soft : val_main_v108 (F := Ideal) x0 x1 x2 x3 x4 x5 x6 x7 x8 x9 x10 x11 x12 x13 x14 x15 = softmax (a := 64) (b := 3) (val_main_v97 (F := Ideal) x0 x1 x2 x3 x4 x5 x6 x7 x8 x9 x10 x11 x12 x13 x14 x15) :=
  softmax_host_of (a := 64) (b := 3) (val_main_v97 (F := Ideal) x0 x1 x2 x3 x4 x5 x6 x7 x8 x9 x10 x11 x12 x13 x14 x15) (val_main_v102 (F := Ideal) x0 x1 x2 x3 x4 x5 x6 x7 x8 x9 x10 x11 x12 x13 x14 x15)
    (fun p c => top_host (a := 64) (b := 3) (val_main_v97 (F := Ideal) x0 x1 x2 x3 x4 x5 x6 x7 x8 x9 x10 x11 x12 x13 x14 x15) reducesTo_S64x3_S64_d1 reduces_rows h_S_ bcast_S_S64
      bcast_S64_S64x1_0 bcast_S64x1_S64x3_0_1 p c)
    reducesTo_S64x3_S64_d1 reduces_rows h_S_ bcast_S64_S64x1_0 bcast_S64x1_S64x3_0_1

/-- The reference's result is the network of its arguments. -/
theorem result_eq : val_main_v108 (F := Ideal) x0 x1 x2 x3 x4 x5 x6 x7 x8 x9 x10 x11 x12 x13 x14 x15
    = net (agg x1) (invc x1) (pool x2) x0 x3 x5 (shapeCast ⟨2, ![1, 128]⟩ x4 cast_row128) x6 x8 (shapeCast ⟨2, ![1, 128]⟩ x7 cast_row128)
        x9 x11 (shapeCast ⟨2, ![1, 128]⟩ x10 cast_row128) x12 (shapeCast ⟨2, ![1, 64]⟩ x13 cast_row64) x14
        (shapeCast ⟨2, ![1, 3]⟩ x15 cast_row3) := by
  rw [soft, logits, pooled, layer3, layer2, layer1]
  rfl

end Cert.ReferenceIdeal.RefValue

end
-- ==== Proof.StagesBridge.lean ====
/-
  The graph stages of the two programs are the same functions. Both programs gather, scatter-add, count, clip and pool by
  the same host operations on arrays of the same shapes; each program's file carries its own copy of the records that name
  an operation's dimension numbers, and the copies have the same entries. So the kernel's and the reference's
  neighbourhood sums, reciprocal clipped degrees and per-graph means are equal as functions, by definition.
-/
import proofs.«131074_j11450382811606_2_alg».proof.Proof.KernelStages
import proofs.«131074_j11450382811606_2_alg».proof.Proof.ReferenceStages
import Idealize.ShloMosaic.PureOps.Ideal

noncomputable section

namespace Cert.Bridge.Stages

open Idealize.ShloMosaic

theorem scatterRows_eq : Cert.KernelIdeal.scatter_S50000x128_S800000x1_S800000x128_1_0_0_1
    = Cert.ReferenceIdeal.scatter_S50000x128_S800000x1_S800000x128_1_0_0_1 := rfl
theorem scatterCount_eq : Cert.KernelIdeal.scatter_S50000_S800000x1_S800000_n_0_0_1
    = Cert.ReferenceIdeal.scatter_S50000_S800000x1_S800000_n_0_0_1 := rfl
theorem gatherRows_eq : Cert.KernelIdeal.gather_S50000x128_S800000x1_S800000x128_1_0_n_n_0_1_1128
    = Cert.ReferenceIdeal.gather_S50000x128_S800000x1_S800000x128_1_0_n_n_0_1_1128 := rfl
theorem scatterPool_eq : Cert.KernelIdeal.scatter_S64x128_S50000x1_S50000x128_1_0_0_1
    = Cert.ReferenceIdeal.scatter_S64x128_S50000x1_S50000x128_1_0_0_1 := rfl
theorem scatterPoolCount_eq : Cert.KernelIdeal.scatter_S64_S50000x1_S50000_n_0_0_1
    = Cert.ReferenceIdeal.scatter_S64_S50000x1_S50000_n_0_0_1 := rfl

theorem srcOf_eq : @Cert.KernelIdeal.Stages.srcOf Ideal = @Cert.ReferenceIdeal.Stages.srcOf Ideal := rfl
theorem dstOf_eq : @Cert.KernelIdeal.Stages.dstOf Ideal = @Cert.ReferenceIdeal.Stages.dstOf Ideal := rfl
theorem wrapOf_eq : @Cert.KernelIdeal.Stages.wrapOf Ideal = @Cert.ReferenceIdeal.Stages.wrapOf Ideal := rfl

theorem aggOf_eq : @Cert.KernelIdeal.Stages.aggOf Ideal _ = @Cert.ReferenceIdeal.Stages.aggOf Ideal _ := by
  funext h s d
  unfold Cert.KernelIdeal.Stages.aggOf Cert.ReferenceIdeal.Stages.aggOf
  rw [scatterRows_eq, gatherRows_eq, wrapOf_eq]
  try rfl

theorem degOf_eq : @Cert.KernelIdeal.Stages.degOf Ideal _ = @Cert.ReferenceIdeal.Stages.degOf Ideal _ := by
  funext d
  unfold Cert.KernelIdeal.Stages.degOf Cert.ReferenceIdeal.Stages.degOf
  rw [scatterCount_eq]
  try rfl

theorem invOf_eq : @Cert.KernelIdeal.Stages.invOf Ideal _ = @Cert.ReferenceIdeal.Stages.invOf Ideal _ := by
  funext d
  unfold Cert.KernelIdeal.Stages.invOf Cert.ReferenceIdeal.Stages.invOf Cert.KernelIdeal.Stages.clipOf Cert.ReferenceIdeal.Stages.clipOf
  rw [degOf_eq]
  try rfl

theorem poolOf_eq : @Cert.KernelIdeal.Stages.poolOf Ideal _ = @Cert.ReferenceIdeal.Stages.poolOf Ideal _ := by
  funext h b
  unfold Cert.KernelIdeal.Stages.poolOf Cert.ReferenceIdeal.Stages.poolOf
  rw [scatterPool_eq, scatterPoolCount_eq]
  try rfl

end Cert.Bridge.Stages

end
-- ==== Proof.lean ====
/-
  A three-layer graph network with mean aggregation over 50000 nodes and 800000 edges, mean-pooled over 64 graphs and
  classified by a two-layer head with a softmax: the kernel against its reference, on the extended reals.

  Both programs compute, for every layer, the neighbourhood sums of the layer's input along the edges (a gather at the
  edges' sources and a scatter-add at their destinations), turn them into means, and form
  (mean · Wl + rows · Wr) + bias, rectified in the first two layers; then the per-graph means and the head.
  They differ in three ways, none of which changes a value on the extended reals:
    · the kernel computes the dense part of a layer on the vector unit a block of 5000 rows at a time, with the operands
      changed to a shorter float format before each product (a change of format is the identity here), and the head in one
      block; the sums run over the same terms;
    · the kernel multiplies the neighbourhood sums by the reciprocal of the clipped degree, computed once, where the
      reference divides by the clipped degree in every layer: x · (1 / y) = x / y for every extended real x once y ≠ 0, and
      a clipped degree max (1, d) is never 0;
    · the kernel adds the bias last, the reference adds it before the second product: a three-term sum reordered.
  So no condition on the inputs is used. The frames are the generated ones (the reference's is its generated run with
  the result dropped); nothing was rewritten by the idealization, so the second-to-last claim is trivial.
-/
import proofs.«131074_j11450382811606_2_alg».proof.Defs
import proofs.«131074_j11450382811606_2_alg».proof.Proof.Gen.Kernel
import proofs.«131074_j11450382811606_2_alg».proof.Proof.Gen.Kernel.Frame
import proofs.«131074_j11450382811606_2_alg».proof.Proof.Gen.KernelIdeal
import proofs.«131074_j11450382811606_2_alg».proof.Proof.Gen.KernelIdeal.Frame
import proofs.«131074_j11450382811606_2_alg».proof.Proof.Gen.ReferenceIdeal
import proofs.«131074_j11450382811606_2_alg».proof.Proof.Gen.ReferenceIdeal.Run
import proofs.«131074_j11450382811606_2_alg».proof.Proof.Gen.ReferenceIdeal.Read
import proofs.«131074_j11450382811606_2_alg».proof.Proof.Gen.Pre_finite_inputs
import proofs.«131074_j11450382811606_2_alg».proof.Proof.KernelValue
import proofs.«131074_j11450382811606_2_alg».proof.Proof.ReferenceValue
import proofs.«131074_j11450382811606_2_alg».proof.Proof.StagesBridge
import Idealize.ShloMosaic.Adequacy
import Idealize.ShloMosaic.Init

set_option maxRecDepth 16384

noncomputable section

namespace Cert.Proof

open Idealize.ShloMosaic Idealize.ShloMosaic.TcCoe Idealize.SL.Sem Cert.Bridge.Stages

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the sixteen arguments, the reference's result term is the kernel's result: both are the
    network of the arguments, and the graph stages of the two programs are the same functions. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v108 (F := Ideal) m' c = Cert.KernelIdeal.Fold.out m c := by
  obtain ⟨a0, a1, a2, a3, a4, a5, a6, a7, a8, a9, a10, a11, a12, a13, a14, a15⟩ := hagree
  rw [Cert.ReferenceIdeal.Read.val_main_v108_eq, Cert.ReferenceIdeal.RefValue.result_eq, a0, a1, a2, a3, a4, a5, a6, a7, a8, a9, a10, a11, a12, a13, a14, a15]
  unfold Cert.KernelIdeal.Fold.out
  simp only [aggOf_eq, srcOf_eq, dstOf_eq, invOf_eq, poolOf_eq]
  rfl

/-- At the ideal values the kernel's run ends with the network of its arguments in the result buffer, and so does the
    reference's run from a memory agreeing on the arguments. -/
theorem algebraic : Cert.algebraic_KernelIdeal_ReferenceIdeal := by
  intro m ρ m' ρ' _ hagree
  refine ⟨fun c => Cert.KernelIdeal.Fold.out m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  exact results_agree m m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
